-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x90 : Shape := ⟨2, ![50000, 90]⟩
abbrev S2x800000 : Shape := ⟨2, ![2, 800000]⟩
abbrev S50000 : Shape := ⟨1, ![50000]⟩
abbrev S90x90 : Shape := ⟨2, ![90, 90]⟩
abbrev S90 : Shape := ⟨1, ![90]⟩
abbrev S32x90 : Shape := ⟨2, ![32, 90]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S50000x90 : S_.BroadcastsInDim S50000x90 (![] : Fin 0 → Fin S50000x90.rank)
  reducesTo_S50000x90_S_d0_1 : S50000x90.ReducesTo [0, 1] S_
  h_S_ : 0 < S_.numel
  bcast_S_S90x90 : S_.BroadcastsInDim S90x90 (![] : Fin 0 → Fin S90x90.rank)
  reducesTo_S90x90_S_d0_1 : S90x90.ReducesTo [0, 1] S_
  bcast_S_S90 : S_.BroadcastsInDim S90 (![] : Fin 0 → Fin S90.rank)
  reducesTo_S90_S_d0 : S90.ReducesTo [0] S_
  bcast_S_S32x90 : S_.BroadcastsInDim S32x90 (![] : Fin 0 → Fin S32x90.rank)
  reducesTo_S32x90_S_d0_1 : S32x90.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S1x32 .f32) (main_arg15 : FVec F S1 .f32) (main_v48 : IVec S_ 1) (main_v49 : FVec F S32x90 .f32) (main_v50 : FVec F S32x90 .f32) : IVec S_ 1 :=
  let main_v51 : IVec S32x90 1 := cmpf .olt main_v49 main_v50
  let main_c_19 : IVec S_ 1 := constantI S_ 1 1#1
  let main_v52 : IVec S_ 1 := (fun x v => Host.reduce IntOp.andi x v reducesTo_S32x90_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S1x32 .f32 := Host.absf main_arg14
  let main_cst_22 : FVec F S_ .f32 := constant S_ .f32 0x7F800000#32
  let main_v60 : FVec F S1x32 .f32 := broadcastInDim S1x32 ![] bcast_S_S1x32 main_cst_22
  let main_v61 : IVec S1x32 1 := cmpf .olt main_v59 main_v60
  let main_c_23 : IVec S_ 1 := constantI S_ 1 1#1
  let main_v62 : IVec S_ 1 := (fun x v => Host.reduce IntOp.andi x v reducesTo_S1x32_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S90x90 .f32) (main_arg10 : FVec F S90 .f32) (main_arg11 : FVec F S90x90 .f32) (main_arg12 : FVec F S32x90 .f32) (main_arg13 : FVec F S32 .f32) (main_arg14 : FVec F S1x32 .f32) (main_arg15 : FVec F S1 .f32) (main_v33 : IVec S_ 1) : IVec S_ 1 :=
  let main_v34 : FVec F S90x90 .f32 := Host.absf main_arg9
  let main_cst_12 : FVec F S_ .f32 := constant S_ .f32 0x7F800000#32
  let main_v35 : FVec F S90x90 .f32 := broadcastInDim S90x90 ![] bcast_S_S90x90 main_cst_12
  let main_v36 : IVec S90x90 1 := cmpf .olt main_v34 main_v35
  let main_c_13 : IVec S_ 1 := constantI S_ 1 1#1
  let main_v37 : IVec S_ 1 := (fun x v => Host.reduce IntOp.andi x v reducesTo_S90x90_S_d0_1 h_S_) main_v36 main_c_13
  let main_v38 : IVec S_ 1 := andi main_v33 main_v37
  let main_v39 : FVec F S90 .f32 := Host.absf main_arg10
  let main_cst_14 : FVec F S_ .f32 := constant S_ .f32 0x7F800000#32
  let main_v40 : FVec F S90 .f32 := broadcastInDim S90 ![] bcast_S_S90 main_cst_14
  let main_v41 : IVec S90 1 := cmpf .olt main_v39 main_v40
  let main_c_15 : IVec S_ 1 := constantI S_ 1 1#1
  let main_v42 : IVec S_ 1 := (fun x v => Host.reduce IntOp.andi x v reducesTo_S90_S_d0 h_S_) main_v41 main_c_15
  let main_v43 : IVec S_ 1 := andi main_v38 main_v42
  let main_v44 : FVec F S90x90 .f32 := Host.absf main_arg11
  let main_cst_16 : FVec F S_ .f32 := constant S_ .f32 0x7F800000#32
  let main_v45 : FVec F S90x90 .f32 := broadcastInDim S90x90 ![] bcast_S_S90x90 main_cst_16
  let main_v46 : IVec S90x90 1 := cmpf .olt main_v44 main_v45
  let main_c_17 : IVec S_ 1 := constantI S_ 1 1#1
  let main_v47 : IVec S_ 1 := (fun x v => Host.reduce IntOp.andi x v reducesTo_S90x90_S_d0_1 h_S_) main_v46 main_c_17
  let main_v48 : IVec S_ 1 := andi main_v43 main_v47
  let main_v49 : FVec F S32x90 .f32 := Host.absf main_arg12
  let main_cst_18 : FVec F S_ .f32 := constant S_ .f32 0x7F800000#32
  let main_v50 : FVec F S32x90 .f32 := broadcastInDim S32x90 ![] bcast_S_S32x90 main_cst_18
  fn_part3 (F := F) main_arg13 main_arg14 main_arg15 main_v48 main_v49 main_v50

def fn_part1 {F : FTy → Type} [FloatOps F] (main_arg6 : FVec F S90x90 .f32) (main_arg7 : FVec F S90 .f32) (main_arg8 : FVec F S90x90 .f32) (main_arg9 : FVec F S90x90 .f32) (main_arg10 : FVec F S90 .f32) (main_arg11 : FVec F S90x90 .f32) (main_arg12 : FVec F S32x90 .f32) (main_arg13 : FVec F S32 .f32) (main_arg14 : FVec F S1x32 .f32) (main_arg15 : FVec F S1 .f32) (main_v13 : IVec S_ 1) (main_v16 : IVec S90x90 1) : IVec S_ 1 :=
  let main_c_5 : IVec S_ 1 := constantI S_ 1 1#1
  let main_v17 : IVec S_ 1 := (fun x v => Host.reduce IntOp.andi x v reducesTo_S90x90_S_d0_1 h_S_) main_v16 main_c_5
  let main_v18 : IVec S_ 1 := andi main_v13 main_v17
  let main_v19 : FVec F S90x90 .f32 := Host.absf main_arg6
  let main_cst_6 : FVec F S_ .f32 := constant S_ .f32 0x7F800000#32
  let main_v20 : FVec F S90x90 .f32 := broadcastInDim S90x90 ![] bcast_S_S90x90 main_cst_6
  let main_v21 : IVec S90x90 1 := cmpf .olt main_v19 main_v20
  let main_c_7 : IVec S_ 1 := constantI S_ 1 1#1
  let main_v22 : IVec S_ 1 := (fun x v => Host.reduce IntOp.andi x v reducesTo_S90x90_S_d0_1 h_S_) main_v21 main_c_7
  let main_v23 : IVec S_ 1 := andi main_v18 main_v22
  let main_v24 : FVec F S90 .f32 := Host.absf main_arg7
  let main_cst_8 : FVec F S_ .f32 := constant S_ .f32 0x7F800000#32
  let main_v25 : FVec F S90 .f32 := broadcastInDim S90 ![] bcast_S_S90 main_cst_8
  let main_v26 : IVec S90 1 := cmpf .olt main_v24 main_v25
  let main_c_9 : IVec S_ 1 := constantI S_ 1 1#1
  let main_v27 : IVec S_ 1 := (fun x v => Host.reduce IntOp.andi x v reducesTo_S90_S_d0 h_S_) main_v26 main_c_9
  let main_v28 : IVec S_ 1 := andi main_v23 main_v27
  let main_v29 : FVec F S90x90 .f32 := Host.absf main_arg8
  let main_cst_10 : FVec F S_ .f32 := constant S_ .f32 0x7F800000#32
  let main_v30 : FVec F S90x90 .f32 := broadcastInDim S90x90 ![] bcast_S_S90x90 main_cst_10
  let main_v31 : IVec S90x90 1 := cmpf .olt main_v29 main_v30
  let main_c_11 : IVec S_ 1 := constantI S_ 1 1#1
  let main_v32 : IVec S_ 1 := (fun x v => Host.reduce IntOp.andi x v reducesTo_S90x90_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x90 .f32) (main_arg1 : IVec S2x800000 32) (main_arg2 : IVec S50000 32) (main_arg3 : FVec F S90x90 .f32) (main_arg4 : FVec F S90 .f32) (main_arg5 : FVec F S90x90 .f32) (main_arg6 : FVec F S90x90 .f32) (main_arg7 : FVec F S90 .f32) (main_arg8 : FVec F S90x90 .f32) (main_arg9 : FVec F S90x90 .f32) (main_arg10 : FVec F S90 .f32) (main_arg11 : FVec F S90x90 .f32) (main_arg12 : FVec F S32x90 .f32) (main_arg13 : FVec F S32 .f32) (main_arg14 : FVec F S1x32 .f32) (main_arg15 : FVec F S1 .f32) : IVec S_ 1 :=
  let main_v0 : FVec F S50000x90 .f32 := Host.absf main_arg0
  let main_cst : FVec F S_ .f32 := constant S_ .f32 0x7F800000#32
  let main_v1 : FVec F S50000x90 .f32 := broadcastInDim S50000x90 ![] bcast_S_S50000x90 main_cst
  let main_v2 : IVec S50000x90 1 := cmpf .olt main_v0 main_v1
  let main_c : IVec S_ 1 := constantI S_ 1 1#1
  let main_v3 : IVec S_ 1 := (fun x v => Host.reduce IntOp.andi x v reducesTo_S50000x90_S_d0_1 h_S_) main_v2 main_c
  let main_v4 : FVec F S90x90 .f32 := Host.absf main_arg3
  let main_cst_0 : FVec F S_ .f32 := constant S_ .f32 0x7F800000#32
  let main_v5 : FVec F S90x90 .f32 := broadcastInDim S90x90 ![] bcast_S_S90x90 main_cst_0
  let main_v6 : IVec S90x90 1 := cmpf .olt main_v4 main_v5
  let main_c_1 : IVec S_ 1 := constantI S_ 1 1#1
  let main_v7 : IVec S_ 1 := (fun x v => Host.reduce IntOp.andi x v reducesTo_S90x90_S_d0_1 h_S_) main_v6 main_c_1
  let main_v8 : IVec S_ 1 := andi main_v3 main_v7
  let main_v9 : FVec F S90 .f32 := Host.absf main_arg4
  let main_cst_2 : FVec F S_ .f32 := constant S_ .f32 0x7F800000#32
  let main_v10 : FVec F S90 .f32 := broadcastInDim S90 ![] bcast_S_S90 main_cst_2
  let main_v11 : IVec S90 1 := cmpf .olt main_v9 main_v10
  let main_c_3 : IVec S_ 1 := constantI S_ 1 1#1
  let main_v12 : IVec S_ 1 := (fun x v => Host.reduce IntOp.andi x v reducesTo_S90_S_d0 h_S_) main_v11 main_c_3
  let main_v13 : IVec S_ 1 := andi main_v8 main_v12
  let main_v14 : FVec F S90x90 .f32 := Host.absf main_arg5
  let main_cst_4 : FVec F S_ .f32 := constant S_ .f32 0x7F800000#32
  let main_v15 : FVec F S90x90 .f32 := broadcastInDim S90x90 ![] bcast_S_S90x90 main_cst_4
  let main_v16 : IVec S90x90 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x90 : Shape := ⟨2, ![50000, 90]⟩
abbrev S2x800000 : Shape := ⟨2, ![2, 800000]⟩
abbrev S50000 : Shape := ⟨1, ![50000]⟩
abbrev S90x90 : Shape := ⟨2, ![90, 90]⟩
abbrev S90 : Shape := ⟨1, ![90]⟩
abbrev S32x90 : Shape := ⟨2, ![32, 90]⟩
abbrev S32 : Shape := ⟨1, ![32]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x90 : Shape := ⟨2, ![800000, 90]⟩
abbrev S50000x1 : Shape := ⟨2, ![50000, 1]⟩
abbrev S1x90 : Shape := ⟨2, ![1, 90]⟩
abbrev S5000x90 : Shape := ⟨2, ![5000, 90]⟩
abbrev S64x90 : Shape := ⟨2, ![64, 90]⟩
abbrev S64 : Shape := ⟨1, ![64]⟩
abbrev S64x1 : Shape := ⟨2, ![64, 1]⟩
abbrev S90x32 : Shape := ⟨2, ![90, 32]⟩
abbrev S32x1 : Shape := ⟨2, ![32, 1]⟩
abbrev S1x1 : Shape := ⟨2, ![1, 1]⟩
abbrev S64x32 : Shape := ⟨2, ![64, 32]⟩

abbrev nBuf : Space → Nat
  | .hbm => 128
  | .vmem => 33
  | .smem => 0
  | _ => 0

abbrev bufTy : (tb : Table) → Fin (tcTables nBuf tb) → BufTy
  | .hbm, ⟨0, _⟩ => ⟨S50000x90, .f32⟩
  | .hbm, ⟨1, _⟩ => ⟨S2x800000, .i32⟩
  | .hbm, ⟨2, _⟩ => ⟨S50000, .i32⟩
  | .hbm, ⟨3, _⟩ => ⟨S90x90, .f32⟩
  | .hbm, ⟨4, _⟩ => ⟨S90, .f32⟩
  | .hbm, ⟨5, _⟩ => ⟨S90x90, .f32⟩
  | .hbm, ⟨6, _⟩ => ⟨S90x90, .f32⟩
  | .hbm, ⟨7, _⟩ => ⟨S90, .f32⟩
  | .hbm, ⟨8, _⟩ => ⟨S90x90, .f32⟩
  | .hbm, ⟨9, _⟩ => ⟨S90x90, .f32⟩
  | .hbm, ⟨10, _⟩ => ⟨S90, .f32⟩
  | .hbm, ⟨11, _⟩ => ⟨S90x90, .f32⟩
  | .hbm, ⟨12, _⟩ => ⟨S32x90, .f32⟩
  | .hbm, ⟨13, _⟩ => ⟨S32, .f32⟩
  | .hbm, ⟨14, _⟩ => ⟨S1x32, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x90, .f32⟩
  | .hbm, ⟨29, _⟩ => ⟨S_, .f32⟩
  | .hbm, ⟨30, _⟩ => ⟨S50000x90, .f32⟩
  | .hbm, ⟨31, _⟩ => ⟨S800000x1, .i32⟩
  | .hbm, ⟨32, _⟩ => ⟨S50000x90, .f32⟩
  | .hbm, ⟨33, _⟩ => ⟨S_, .f32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x90, .f32⟩
  | .hbm, ⟨44, _⟩ => ⟨S50000x90, .f32⟩
  | .hbm, ⟨45, _⟩ => ⟨S90x90, .f32⟩
  | .hbm, ⟨46, _⟩ => ⟨S90x90, .f32⟩
  | .hbm, ⟨47, _⟩ => ⟨S1x90, .f32⟩
  | .hbm, ⟨48, _⟩ => ⟨S50000x90, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x90, .f32⟩
  | .hbm, ⟨58, _⟩ => ⟨S_, .f32⟩
  | .hbm, ⟨59, _⟩ => ⟨S50000x90, .f32⟩
  | .hbm, ⟨60, _⟩ => ⟨S800000x1, .i32⟩
  | .hbm, ⟨61, _⟩ => ⟨S50000x90, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x90, .f32⟩
  | .hbm, ⟨73, _⟩ => ⟨S50000x90, .f32⟩
  | .hbm, ⟨74, _⟩ => ⟨S90x90, .f32⟩
  | .hbm, ⟨75, _⟩ => ⟨S90x90, .f32⟩
  | .hbm, ⟨76, _⟩ => ⟨S1x90, .f32⟩
  | .hbm, ⟨77, _⟩ => ⟨S50000x90, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x90, .f32⟩
  | .hbm, ⟨87, _⟩ => ⟨S_, .f32⟩
  | .hbm, ⟨88, _⟩ => ⟨S50000x90, .f32⟩
  | .hbm, ⟨89, _⟩ => ⟨S800000x1, .i32⟩
  | .hbm, ⟨90, _⟩ => ⟨S50000x90, .f32⟩
  | .hbm, ⟨91, _⟩ => ⟨S_, .f32⟩
  | .hbm, ⟨92, _⟩ => ⟨S800000, .f32⟩
  | .hbm, ⟨93, _⟩ => ⟨S_, .f32⟩
  | .hbm, ⟨94, _⟩ => ⟨S50000, .f32⟩
  | .hbm, ⟨95, _⟩ => ⟨S800000x1, .i32⟩
  | .hbm, ⟨96, _⟩ => ⟨S50000, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S50000x1, .f32⟩
  | .hbm, ⟨101, _⟩ => ⟨S50000x90, .f32⟩
  | .hbm, ⟨102, _⟩ => ⟨S50000x90, .f32⟩
  | .hbm, ⟨103, _⟩ => ⟨S90x90, .f32⟩
  | .hbm, ⟨104, _⟩ => ⟨S90x90, .f32⟩
  | .hbm, ⟨105, _⟩ => ⟨S1x90, .f32⟩
  | .hbm, ⟨106, _⟩ => ⟨S50000x90, .f32⟩
  | .hbm, ⟨107, _⟩ => ⟨S_, .f32⟩
  | .hbm, ⟨108, _⟩ => ⟨S64x90, .f32⟩
  | .hbm, ⟨109, _⟩ => ⟨S50000x1, .i32⟩
  | .hbm, ⟨110, _⟩ => ⟨S64x90, .f32⟩
  | .hbm, ⟨111, _⟩ => ⟨S_, .f32⟩
  | .hbm, ⟨112, _⟩ => ⟨S50000, .f32⟩
  | .hbm, ⟨113, _⟩ => ⟨S_, .f32⟩
  | .hbm, ⟨114, _⟩ => ⟨S64, .f32⟩
  | .hbm, ⟨115, _⟩ => ⟨S50000x1, .i32⟩
  | .hbm, ⟨116, _⟩ => ⟨S64, .f32⟩
  | .hbm, ⟨117, _⟩ => ⟨S_, .f32⟩
  | .hbm, ⟨118, _⟩ => ⟨S64, .f32⟩
  | .hbm, ⟨119, _⟩ => ⟨S64, .f32⟩
  | .hbm, ⟨120, _⟩ => ⟨S64x1, .f32⟩
  | .hbm, ⟨121, _⟩ => ⟨S64x90, .f32⟩
  | .hbm, ⟨122, _⟩ => ⟨S64x90, .f32⟩
  | .hbm, ⟨123, _⟩ => ⟨S90x32, .f32⟩
  | .hbm, ⟨124, _⟩ => ⟨S32x1, .f32⟩
  | .hbm, ⟨125, _⟩ => ⟨S1x32, .f32⟩
  | .hbm, ⟨126, _⟩ => ⟨S1x1, .f32⟩
  | .hbm, ⟨127, _⟩ => ⟨S64x1, .f32⟩
  | .local _ .vmem, ⟨0, _⟩ => ⟨S5000x90, .f32⟩
  | .local _ .vmem, ⟨1, _⟩ => ⟨S5000x90, .f32⟩
  | .local _ .vmem, ⟨2, _⟩ => ⟨S5000x90, .f32⟩
  | .local _ .vmem, ⟨3, _⟩ => ⟨S5000x90, .f32⟩
  | .local _ .vmem, ⟨4, _⟩ => ⟨S90x90, .f32⟩
  | .local _ .vmem, ⟨5, _⟩ => ⟨S1x90, .f32⟩
  | .local _ .vmem, ⟨6, _⟩ => ⟨S90x90, .f32⟩
  | .local _ .vmem, ⟨7, _⟩ => ⟨S5000x90, .f32⟩
  | .local _ .vmem, ⟨8, _⟩ => ⟨S5000x90, .f32⟩
  | .local _ .vmem, ⟨9, _⟩ => ⟨S5000x90, .f32⟩
  | .local _ .vmem, ⟨10, _⟩ => ⟨S5000x90, .f32⟩
  | .local _ .vmem, ⟨11, _⟩ => ⟨S5000x90, .f32⟩
  | .local _ .vmem, ⟨12, _⟩ => ⟨S5000x90, .f32⟩
  | .local _ .vmem, ⟨13, _⟩ => ⟨S90x90, .f32⟩
  | .local _ .vmem, ⟨14, _⟩ => ⟨S1x90, .f32⟩
  | .local _ .vmem, ⟨15, _⟩ => ⟨S90x90, .f32⟩
  | .local _ .vmem, ⟨16, _⟩ => ⟨S5000x90, .f32⟩
  | .local _ .vmem, ⟨17, _⟩ => ⟨S5000x90, .f32⟩
  | .local _ .vmem, ⟨18, _⟩ => ⟨S5000x90, .f32⟩
  | .local _ .vmem, ⟨19, _⟩ => ⟨S5000x90, .f32⟩
  | .local _ .vmem, ⟨20, _⟩ => ⟨S5000x90, .f32⟩
  | .local _ .vmem, ⟨21, _⟩ => ⟨S5000x90, .f32⟩
  | .local _ .vmem, ⟨22, _⟩ => ⟨S90x90, .f32⟩
  | .local _ .vmem, ⟨23, _⟩ => ⟨S1x90, .f32⟩
  | .local _ .vmem, ⟨24, _⟩ => ⟨S90x90, .f32⟩
  | .local _ .vmem, ⟨25, _⟩ => ⟨S5000x90, .f32⟩
  | .local _ .vmem, ⟨26, _⟩ => ⟨S5000x90, .f32⟩
  | .local _ .vmem, ⟨27, _⟩ => ⟨S64x90, .f32⟩
  | .local _ .vmem, ⟨28, _⟩ => ⟨S90x32, .f32⟩
  | .local _ .vmem, ⟨29, _⟩ => ⟨S1x32, .f32⟩
  | .local _ .vmem, ⟨30, _⟩ => ⟨S32x1, .f32⟩
  | .local _ .vmem, ⟨31, _⟩ => ⟨S1x1, .f32⟩
  | .local _ .vmem, ⟨32, _⟩ => ⟨S64x1, .f32⟩
  | _, _ => ⟨S50000x90, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_17 : Ref sig .tc := ⟨.hbm, 111, rfl⟩
abbrev main_v76 : Ref sig .tc := ⟨.hbm, 112, rfl⟩
abbrev main_cst_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_19 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x90 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x90 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S90x90 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x90 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S90x90 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x90 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x90 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x90 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S90x90 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x90 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S90x90 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x90 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x90 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x90 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S90x90 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x90 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S90x90 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x90 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x90 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S90x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x90 : S_.BroadcastsInDim S50000x90 (![] : Fin 0 → Fin S50000x90.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x90_0_1 : S50000x1.BroadcastsInDim S50000x90 (![0, 1] : Fin 2 → Fin S50000x90.rank)
  transposes_S90x90_S90x90_1_0 : S90x90.Transposes [1, 0] S90x90
  shapeCasts_S90_S1x90 : S90.ShapeCasts S1x90
  inb_S5000x90_S5000x90_0_0 : ∀ a, (![0, 0] : Fin 2 → Nat) a + S5000x90.size a ≤ S5000x90.size a
  h_S5000x90 : 0 < S5000x90.numel
  shapeCasts_S5000x90_S5000x90 : S5000x90.ShapeCasts S5000x90
  bitsLt_bf16_f32 : FTy.bits .bf16 < FTy.bits .f32
  inb_S90x90_S90x90_0_0 : ∀ a, (![0, 0] : Fin 2 → Nat) a + S90x90.size a ≤ S90x90.size a
  h_S90x90 : 0 < S90x90.numel
  shapeCasts_S90x90_S90x90 : S90x90.ShapeCasts S90x90
  inb_S1x90_S1x90_0_0 : ∀ a, (![0, 0] : Fin 2 → Nat) a + S1x90.size a ≤ S1x90.size a
  h_S1x90 : 0 < S1x90.numel
  shapeCasts_S1x90_S1x90 : S1x90.ShapeCasts S1x90
  broadcasts_S1x90_S5000x90 : S1x90.Broadcasts S5000x90
  bcast_S_S64x90 : S_.BroadcastsInDim S64x90 (![] : Fin 0 → Fin S64x90.rank)
  bcast_S_S64 : S_.BroadcastsInDim S64 (![] : Fin 0 → Fin S64.rank)
  bcast_S64_S64x1_0 : S64.BroadcastsInDim S64x1 (![0] : Fin 1 → Fin S64x1.rank)
  bcast_S64x1_S64x90_0_1 : S64x1.BroadcastsInDim S64x90 (![0, 1] : Fin 2 → Fin S64x90.rank)
  transposes_S32x90_S90x32_1_0 : S32x90.Transposes [1, 0] S90x32
  transposes_S1x32_S32x1_1_0 : S1x32.Transposes [1, 0] S32x1
  shapeCasts_S32_S1x32 : S32.ShapeCasts S1x32
  shapeCasts_S1_S1x1 : S1.ShapeCasts S1x1
  inb_S64x90_S64x90_0_0 : ∀ a, (![0, 0] : Fin 2 → Nat) a + S64x90.size a ≤ S64x90.size a
  h_S64x90 : 0 < S64x90.numel
  shapeCasts_S64x90_S64x90 : S64x90.ShapeCasts S64x90
  inb_S90x32_S90x32_0_0 : ∀ a, (![0, 0] : Fin 2 → Nat) a + S90x32.size a ≤ S90x32.size a
  h_S90x32 : 0 < S90x32.numel
  shapeCasts_S90x32_S90x32 : S90x32.ShapeCasts S90x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  gather_S50000x90_S800000x1_S800000x90_1_0_n_n_0_1_190_wf : GatherDims.WF S50000x90 S800000x1 S800000x90 [1] [0] [] [0] [] 1 ![1, 90]
  scatter_S50000x90_S800000x1_S800000x90_1_0_0_1_wf : ScatterDims.WF S50000x90 S800000x1 S800000x90 [1] [0] [0] 1
  scatter_S50000_S800000x1_S800000_n_0_0_1_wf : ScatterDims.WF S50000 S800000x1 S800000 [] [0] [0] 1
  dot_S5000x90_S90x90_S5000x90_1_0_0_1_n_n_wf : DotDims.WF S5000x90 S90x90 S5000x90 [1] [0] [0] [1] [] []
  scatter_S64x90_S50000x1_S50000x90_1_0_0_1_wf : ScatterDims.WF S64x90 S50000x1 S50000x90 [1] [0] [0] 1
  scatter_S64_S50000x1_S50000_n_0_0_1_wf : ScatterDims.WF S64 S50000x1 S50000 [] [0] [0] 1
  dot_S64x90_S90x32_S64x32_1_0_0_1_n_n_wf : DotDims.WF S64x90 S90x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x90.size a ≤ S50000x90.size a
  hwx0_0 : ∀ i : grid0.Coords, EltTy.bits .f32 = 32 ∨ (Rect.block (s := S50000x90) S5000x90.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x90.size a ≤ S50000x90.size a
  hwx0_1 : ∀ i : grid0.Coords, EltTy.bits .f32 = 32 ∨ (Rect.block (s := S50000x90) S5000x90.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S90x90.size a ≤ S90x90.size a
  hwx0_2 : ∀ i : grid0.Coords, EltTy.bits .f32 = 32 ∨ (Rect.block (s := S90x90) S90x90.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x90.size a ≤ S1x90.size a
  hwx0_3 : ∀ i : grid0.Coords, EltTy.bits .f32 = 32 ∨ (Rect.block (s := S1x90) S1x90.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S90x90.size a ≤ S90x90.size a
  hwx0_4 : ∀ i : grid0.Coords, EltTy.bits .f32 = 32 ∨ (Rect.block (s := S90x90) S90x90.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x90.size a ≤ S50000x90.size a
  hwx0_5 : ∀ i : grid0.Coords, EltTy.bits .f32 = 32 ∨ (Rect.block (s := S50000x90) S5000x90.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x90.size a ≤ S50000x90.size a
  hwx1_0 : ∀ i : grid1.Coords, EltTy.bits .f32 = 32 ∨ (Rect.block (s := S50000x90) S5000x90.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x90.size a ≤ S50000x90.size a
  hwx1_1 : ∀ i : grid1.Coords, EltTy.bits .f32 = 32 ∨ (Rect.block (s := S50000x90) S5000x90.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S90x90.size a ≤ S90x90.size a
  hwx1_2 : ∀ i : grid1.Coords, EltTy.bits .f32 = 32 ∨ (Rect.block (s := S90x90) S90x90.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x90.size a ≤ S1x90.size a
  hwx1_3 : ∀ i : grid1.Coords, EltTy.bits .f32 = 32 ∨ (Rect.block (s := S1x90) S1x90.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S90x90.size a ≤ S90x90.size a
  hwx1_4 : ∀ i : grid1.Coords, EltTy.bits .f32 = 32 ∨ (Rect.block (s := S90x90) S90x90.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x90.size a ≤ S50000x90.size a
  hwx1_5 : ∀ i : grid1.Coords, EltTy.bits .f32 = 32 ∨ (Rect.block (s := S50000x90) S5000x90.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x90.size a ≤ S50000x90.size a
  hwx2_0 : ∀ i : grid2.Coords, EltTy.bits .f32 = 32 ∨ (Rect.block (s := S50000x90) S5000x90.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x90.size a ≤ S50000x90.size a
  hwx2_1 : ∀ i : grid2.Coords, EltTy.bits .f32 = 32 ∨ (Rect.block (s := S50000x90) S5000x90.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S90x90.size a ≤ S90x90.size a
  hwx2_2 : ∀ i : grid2.Coords, EltTy.bits .f32 = 32 ∨ (Rect.block (s := S90x90) S90x90.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x90.size a ≤ S1x90.size a
  hwx2_3 : ∀ i : grid2.Coords, EltTy.bits .f32 = 32 ∨ (Rect.block (s := S1x90) S1x90.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S90x90.size a ≤ S90x90.size a
  hwx2_4 : ∀ i : grid2.Coords, EltTy.bits .f32 = 32 ∨ (Rect.block (s := S90x90) S90x90.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x90.size a ≤ S50000x90.size a
  hwx2_5 : ∀ i : grid2.Coords, EltTy.bits .f32 = 32 ∨ (Rect.block (s := S50000x90) S5000x90.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x90.size a ≤ S64x90.size a
  hwx3_0 : ∀ i : grid3.Coords, EltTy.bits .f32 = 32 ∨ (Rect.block (s := S64x90) S64x90.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S90x32.size a ≤ S90x32.size a
  hwx3_1 : ∀ i : grid3.Coords, EltTy.bits .f32 = 32 ∨ (Rect.block (s := S90x32) S90x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x1.size a ≤ S32x1.size a
  hwx3_3 : ∀ i : grid3.Coords, EltTy.bits .f32 = 32 ∨ (Rect.block (s := S32x1) S32x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)

variable [Facts₀]

def gather_S50000x90_S800000x1_S800000x90_1_0_n_n_0_1_190 : GatherDims S50000x90 S800000x1 S800000x90 where
  offsetDims := [1]
  collapsedSliceDims := [0]
  operandBatchingDims := []
  startIndicesBatchingDims := []
  startIndexMap := [0]
  indexVectorDim := 1
  sliceSizes := ![1, 90]
  wf := gather_S50000x90_S800000x1_S800000x90_1_0_n_n_0_1_190_wf
def scatter_S50000x90_S800000x1_S800000x90_1_0_0_1 : ScatterDims S50000x90 S800000x1 S800000x90 where
  updateWindowDims := [1]
  insertedWindowDims := [0]
  scatterDimsToOperandDims := [0]
  indexVectorDim := 1
  wf := scatter_S50000x90_S800000x1_S800000x90_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x90_S90x90_S5000x90_1_0_0_1_n_n : DotDims S5000x90 S90x90 S5000x90 where
  lhsContracting := [1]
  rhsContracting := [0]
  lhsNonContracting := [0]
  rhsNonContracting := [1]
  lhsBatch := []
  rhsBatch := []
  wf := dot_S5000x90_S90x90_S5000x90_1_0_0_1_n_n_wf
def scatter_S64x90_S50000x1_S50000x90_1_0_0_1 : ScatterDims S64x90 S50000x1 S50000x90 where
  updateWindowDims := [1]
  insertedWindowDims := [0]
  scatterDimsToOperandDims := [0]
  indexVectorDim := 1
  wf := scatter_S64x90_S50000x1_S50000x90_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x90_S90x32_S64x32_1_0_0_1_n_n : DotDims S64x90 S90x32 S64x32 where
  lhsContracting := [1]
  rhsContracting := [0]
  lhsNonContracting := [0]
  rhsNonContracting := [1]
  lhsBatch := []
  rhsBatch := []
  wf := dot_S64x90_S90x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_v22) S5000x90.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x90.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S90x90.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x90.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S90x90.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x90.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x90.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x90.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S90x90.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x90.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S90x90.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x90.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S5000x90.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x90.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S90x90.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x90.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S90x90.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x90.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v84) S64x90.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v85) S90x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S32x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v89) S64x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x90 : Shape := ⟨2, ![50000, 90]⟩
abbrev S2x800000 : Shape := ⟨2, ![2, 800000]⟩
abbrev S50000 : Shape := ⟨1, ![50000]⟩
abbrev S90x90 : Shape := ⟨2, ![90, 90]⟩
abbrev S90 : Shape := ⟨1, ![90]⟩
abbrev S32x90 : Shape := ⟨2, ![32, 90]⟩
abbrev S32 : Shape := ⟨1, ![32]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x90 : Shape := ⟨2, ![800000, 90]⟩
abbrev S50000x1 : Shape := ⟨2, ![50000, 1]⟩
abbrev S1x90 : Shape := ⟨2, ![1, 90]⟩
abbrev S64x90 : Shape := ⟨2, ![64, 90]⟩
abbrev S64 : Shape := ⟨1, ![64]⟩
abbrev S64x1 : Shape := ⟨2, ![64, 1]⟩
abbrev S90x32 : Shape := ⟨2, ![90, 32]⟩
abbrev S64x32 : Shape := ⟨2, ![64, 32]⟩
abbrev S32x1 : Shape := ⟨2, ![32, 1]⟩
abbrev S1x1 : Shape := ⟨2, ![1, 1]⟩

abbrev nBuf : Space → Nat
  | .hbm => 157
  | .vmem => 0
  | .smem => 0
  | _ => 0

abbrev hbmTy0_0 (i : Nat) : BufTy := match i % 128 with
  | 0 => ⟨S50000x90, .f32⟩
  | 1 => ⟨S2x800000, .i32⟩
  | 2 => ⟨S50000, .i32⟩
  | 3 => ⟨S90x90, .f32⟩
  | 4 => ⟨S90, .f32⟩
  | 5 => ⟨S90x90, .f32⟩
  | 6 => ⟨S90x90, .f32⟩
  | 7 => ⟨S90, .f32⟩
  | 8 => ⟨S90x90, .f32⟩
  | 9 => ⟨S90x90, .f32⟩
  | 10 => ⟨S90, .f32⟩
  | 11 => ⟨S90x90, .f32⟩
  | 12 => ⟨S32x90, .f32⟩
  | 13 => ⟨S32, .f32⟩
  | 14 => ⟨S1x32, .f32⟩
  | 15 => ⟨S1, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x90, .f32⟩
  | 29 => ⟨S_, .f32⟩
  | 30 => ⟨S50000x90, .f32⟩
  | 31 => ⟨S800000x1, .i32⟩
  | 32 => ⟨S50000x90, .f32⟩
  | 33 => ⟨S_, .f32⟩
  | 34 => ⟨S800000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x90, .f32⟩
  | 44 => ⟨S50000x90, .f32⟩
  | 45 => ⟨S90x90, .f32⟩
  | 46 => ⟨S50000x90, .f32⟩
  | 47 => ⟨S1x90, .f32⟩
  | 48 => ⟨S50000x90, .f32⟩
  | 49 => ⟨S50000x90, .f32⟩
  | 50 => ⟨S90x90, .f32⟩
  | 51 => ⟨S50000x90, .f32⟩
  | 52 => ⟨S50000x90, .f32⟩
  | 53 => ⟨S_, .f32⟩
  | 54 => ⟨S50000x90, .f32⟩
  | 55 => ⟨S50000x90, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x90, .f32⟩
  | 65 => ⟨S_, .f32⟩
  | 66 => ⟨S50000x90, .f32⟩
  | 67 => ⟨S800000x1, .i32⟩
  | 68 => ⟨S50000x90, .f32⟩
  | 69 => ⟨S_, .f32⟩
  | 70 => ⟨S800000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x90, .f32⟩
  | 80 => ⟨S50000x90, .f32⟩
  | 81 => ⟨S90x90, .f32⟩
  | 82 => ⟨S50000x90, .f32⟩
  | 83 => ⟨S1x90, .f32⟩
  | 84 => ⟨S50000x90, .f32⟩
  | 85 => ⟨S50000x90, .f32⟩
  | 86 => ⟨S90x90, .f32⟩
  | 87 => ⟨S50000x90, .f32⟩
  | 88 => ⟨S50000x90, .f32⟩
  | 89 => ⟨S_, .f32⟩
  | 90 => ⟨S50000x90, .f32⟩
  | 91 => ⟨S50000x90, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x90, .f32⟩
  | 101 => ⟨S_, .f32⟩
  | 102 => ⟨S50000x90, .f32⟩
  | 103 => ⟨S800000x1, .i32⟩
  | 104 => ⟨S50000x90, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S50000, .f32⟩
  | 113 => ⟨S50000, .f32⟩
  | 114 => ⟨S50000x1, .f32⟩
  | 115 => ⟨S50000x90, .f32⟩
  | 116 => ⟨S50000x90, .f32⟩
  | 117 => ⟨S90x90, .f32⟩
  | 118 => ⟨S50000x90, .f32⟩
  | 119 => ⟨S1x90, .f32⟩
  | 120 => ⟨S50000x90, .f32⟩
  | 121 => ⟨S50000x90, .f32⟩
  | 122 => ⟨S90x90, .f32⟩
  | 123 => ⟨S50000x90, .f32⟩
  | 124 => ⟨S50000x90, .f32⟩
  | 125 => ⟨S_, .f32⟩
  | 126 => ⟨S50000x90, .f32⟩
  | 127 => ⟨S50000x90, .f32⟩
  | _ => ⟨S50000x90, .f32⟩

abbrev hbmTy0_1 (i : Nat) : BufTy := match i % 128 with
  | 0 => ⟨S_, .f32⟩
  | 1 => ⟨S64x90, .f32⟩
  | 2 => ⟨S50000x1, .i32⟩
  | 3 => ⟨S64x90, .f32⟩
  | 4 => ⟨S_, .f32⟩
  | 5 => ⟨S50000, .f32⟩
  | 6 => ⟨S_, .f32⟩
  | 7 => ⟨S64, .f32⟩
  | 8 => ⟨S50000x1, .i32⟩
  | 9 => ⟨S64, .f32⟩
  | 10 => ⟨S_, .f32⟩
  | 11 => ⟨S64, .f32⟩
  | 12 => ⟨S64, .f32⟩
  | 13 => ⟨S64x1, .f32⟩
  | 14 => ⟨S64x90, .f32⟩
  | 15 => ⟨S64x90, .f32⟩
  | 16 => ⟨S90x32, .f32⟩
  | 17 => ⟨S64x32, .f32⟩
  | 18 => ⟨S1x32, .f32⟩
  | 19 => ⟨S64x32, .f32⟩
  | 20 => ⟨S64x32, .f32⟩
  | 21 => ⟨S_, .f32⟩
  | 22 => ⟨S64x32, .f32⟩
  | 23 => ⟨S64x32, .f32⟩
  | 24 => ⟨S32x1, .f32⟩
  | 25 => ⟨S64x1, .f32⟩
  | 26 => ⟨S1x1, .f32⟩
  | 27 => ⟨S64x1, .f32⟩
  | 28 => ⟨S64x1, .f32⟩
  | _ => ⟨S50000x90, .f32⟩

abbrev hbmTy (i : Nat) : BufTy := match i / 128 with
  | 0 => hbmTy0_0 i
  | 1 => hbmTy0_1 i
  | _ => ⟨S50000x90, .f32⟩

abbrev bufTy : (tb : Table) → Fin (tcTables nBuf tb) → BufTy
  | .hbm, ⟨i, _⟩ => hbmTy i
  | _, _ => ⟨S50000x90, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_c_10 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_call2_cst : Ref sig .tc := ⟨.hbm, 125, rfl⟩
abbrev main_call2_v0 : Ref sig .tc := ⟨.hbm, 126, rfl⟩
abbrev main_v87 : Ref sig .tc := ⟨.hbm, 127, rfl⟩
abbrev main_cst_16 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_17 : Ref sig .tc := ⟨.hbm, 132, rfl⟩
abbrev main_v91 : Ref sig .tc := ⟨.hbm, 133, rfl⟩
abbrev main_cst_18 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_19 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_call3_cst : Ref sig .tc := ⟨.hbm, 149, rfl⟩
abbrev main_call3_v0 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x90 : S_.BroadcastsInDim S50000x90 (![] : Fin 0 → Fin S50000x90.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x90_0_1 : S50000x1.BroadcastsInDim S50000x90 (![0, 1] : Fin 2 → Fin S50000x90.rank)
  transposes_S90x90_S90x90_1_0 : S90x90.Transposes [1, 0] S90x90
  bcast_S90_S1x90_1 : S90.BroadcastsInDim S1x90 (![1] : Fin 1 → Fin S1x90.rank)
  bcast_S1x90_S50000x90_0_1 : S1x90.BroadcastsInDim S50000x90 (![0, 1] : Fin 2 → Fin S50000x90.rank)
  bcast_S_S64x90 : S_.BroadcastsInDim S64x90 (![] : Fin 0 → Fin S64x90.rank)
  bcast_S_S64 : S_.BroadcastsInDim S64 (![] : Fin 0 → Fin S64.rank)
  bcast_S64_S64x1_0 : S64.BroadcastsInDim S64x1 (![0] : Fin 1 → Fin S64x1.rank)
  bcast_S64x1_S64x90_0_1 : S64x1.BroadcastsInDim S64x90 (![0, 1] : Fin 2 → Fin S64x90.rank)
  transposes_S32x90_S90x32_1_0 : S32x90.Transposes [1, 0] S90x32
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  transposes_S1x32_S32x1_1_0 : S1x32.Transposes [1, 0] S32x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S50000x90_S800000x1_S800000x90_1_0_n_n_0_1_190_wf : GatherDims.WF S50000x90 S800000x1 S800000x90 [1] [0] [] [0] [] 1 ![1, 90]
  scatter_S50000x90_S800000x1_S800000x90_1_0_0_1_wf : ScatterDims.WF S50000x90 S800000x1 S800000x90 [1] [0] [0] 1
  scatter_S50000_S800000x1_S800000_n_0_0_1_wf : ScatterDims.WF S50000 S800000x1 S800000 [] [0] [0] 1
  dot_S50000x90_S90x90_S50000x90_1_0_0_1_n_n_wf : DotDims.WF S50000x90 S90x90 S50000x90 [1] [0] [0] [1] [] []
  scatter_S64x90_S50000x1_S50000x90_1_0_0_1_wf : ScatterDims.WF S64x90 S50000x1 S50000x90 [1] [0] [0] 1
  scatter_S64_S50000x1_S50000_n_0_0_1_wf : ScatterDims.WF S64 S50000x1 S50000 [] [0] [0] 1
  dot_S64x90_S90x32_S64x32_1_0_0_1_n_n_wf : DotDims.WF S64x90 S90x32 S64x32 [1] [0] [0] [1] [] []
  dot_S64x32_S32x1_S64x1_1_0_0_1_n_n_wf : DotDims.WF S64x32 S32x1 S64x1 [1] [0] [0] [1] [] []

variable [Facts₀]

def gather_S50000x90_S800000x1_S800000x90_1_0_n_n_0_1_190 : GatherDims S50000x90 S800000x1 S800000x90 where
  offsetDims := [1]
  collapsedSliceDims := [0]
  operandBatchingDims := []
  startIndicesBatchingDims := []
  startIndexMap := [0]
  indexVectorDim := 1
  sliceSizes := ![1, 90]
  wf := gather_S50000x90_S800000x1_S800000x90_1_0_n_n_0_1_190_wf
def scatter_S50000x90_S800000x1_S800000x90_1_0_0_1 : ScatterDims S50000x90 S800000x1 S800000x90 where
  updateWindowDims := [1]
  insertedWindowDims := [0]
  scatterDimsToOperandDims := [0]
  indexVectorDim := 1
  wf := scatter_S50000x90_S800000x1_S800000x90_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x90_S90x90_S50000x90_1_0_0_1_n_n : DotDims S50000x90 S90x90 S50000x90 where
  lhsContracting := [1]
  rhsContracting := [0]
  lhsNonContracting := [0]
  rhsNonContracting := [1]
  lhsBatch := []
  rhsBatch := []
  wf := dot_S50000x90_S90x90_S50000x90_1_0_0_1_n_n_wf
def scatter_S64x90_S50000x1_S50000x90_1_0_0_1 : ScatterDims S64x90 S50000x1 S50000x90 where
  updateWindowDims := [1]
  insertedWindowDims := [0]
  scatterDimsToOperandDims := [0]
  indexVectorDim := 1
  wf := scatter_S64x90_S50000x1_S50000x90_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x90_S90x32_S64x32_1_0_0_1_n_n : DotDims S64x90 S90x32 S64x32 where
  lhsContracting := [1]
  rhsContracting := [0]
  lhsNonContracting := [0]
  rhsNonContracting := [1]
  lhsBatch := []
  rhsBatch := []
  wf := dot_S64x90_S90x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.KernelRun.lean ====
/-
  The kernel program's run with its result named.

  Every weakly fair execution of the program terminates without a fault; at the end the result buffer holds what the
  last boundary of the run assigns to it — the contents after the fourth region, which the fold through the program's
  host stretches and regions determines from the launch memory — and the argument arrays are as launched. The run
  itself is the launch of the program's eight segments (four host stretches, four regions) from the launch memory.
-/
import proofs.«153111_j23476291240662_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v89) = W8 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v89 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.Run

end
-- ==== Proof.LibDenseSpec.lean ====
/-
  The three dense stages of the two-layer graph convolution network, as whole-array functions on extended reals.

  A node-feature matrix `A` of `R` rows is mapped row by row, so a stage's entry at row `r` depends on row `r`
  of its input only:
    * `linear X W`            — the product `X · W`;
    * `reluLinear A b W`      — `relu (A + b) · W`, the bias `b` added to every row;
    * `reluLinearLogistic A b W β` — `σ (relu (A + b) · W + β)`, with `σ t = 1 / (1 + e⁻ᵗ)`.
  The zero of the rectifier is kept as the all-zero 32-bit word read at the ideal values: the same word stands on both
  sides of every equation below and is never evaluated.
-/
import Idealize.ShloMosaic.PureOps.Ideal
import Idealize.ShloMosaic.Lib.ValueIdx

noncomputable section

namespace Cert.Gcn

open Idealize.ShloMosaic Idealize.ShloMosaic.ValueIdx

variable {R K N : ℕ}

/-- The matrix product: entry `(r, c)` is the sum over `k` of `X[r,k] * W[k,c]`. -/
def linear (X : FVec Ideal ⟨2, ![R, K]⟩ .f32) (W : FVec Ideal ⟨2, ![K, N]⟩ .f32) : FVec Ideal ⟨2, ![R, N]⟩ .f32 :=
  fun i => ∑ k : Fin K, X (ix2 (i 0) k) * W (ix2 k (i 1))

/-- A row bias added and the rectifier applied, entry by entry. -/
def biasRelu (A : FVec Ideal ⟨2, ![R, K]⟩ .f32) (b : FVec Ideal ⟨1, ![K]⟩ .f32) : FVec Ideal ⟨2, ![R, K]⟩ .f32 :=
  fun i => max (A i + b (ix1 (i 1))) (Ideal.ofBits .f32 0x00000000#32)

/-- `relu (A + b) · W`. -/
def reluLinear (A : FVec Ideal ⟨2, ![R, K]⟩ .f32) (b : FVec Ideal ⟨1, ![K]⟩ .f32) (W : FVec Ideal ⟨2, ![K, N]⟩ .f32) :
    FVec Ideal ⟨2, ![R, N]⟩ .f32 :=
  linear (biasRelu A b) W

/-- `σ (relu (A + b) · W + β)` for a one-column `W` and a one-entry `β`. -/
def reluLinearLogistic (A : FVec Ideal ⟨2, ![R, K]⟩ .f32) (b : FVec Ideal ⟨1, ![K]⟩ .f32) (W : FVec Ideal ⟨2, ![K, 1]⟩ .f32)
    (β : FVec Ideal ⟨1, ![1]⟩ .f32) : FVec Ideal ⟨2, ![R, 1]⟩ .f32 :=
  fun i => Ideal.logistic (reluLinear A b W i + β (ix1 (0 : Fin 1)))

theorem linear_ix2 (X : FVec Ideal ⟨2, ![R, K]⟩ .f32) (W : FVec Ideal ⟨2, ![K, N]⟩ .f32) (r : Fin R) (c : Fin N) :
    linear X W (ix2 r c) = ∑ k : Fin K, X (ix2 r k) * W (ix2 k c) := rfl

theorem biasRelu_ix2 (A : FVec Ideal ⟨2, ![R, K]⟩ .f32) (b : FVec Ideal ⟨1, ![K]⟩ .f32) (r : Fin R) (k : Fin K) :
    biasRelu A b (ix2 r k) = max (A (ix2 r k) + b (ix1 k)) (Ideal.ofBits .f32 0x00000000#32) := rfl

/-- Two inputs that agree on row `r` give the same product row. -/
theorem linear_congr_row (X X' : FVec Ideal ⟨2, ![R, K]⟩ .f32) (W : FVec Ideal ⟨2, ![K, N]⟩ .f32) (r : Fin R) (c : Fin N)
    (h : ∀ k : Fin K, X (ix2 r k) = X' (ix2 r k)) : linear X W (ix2 r c) = linear X' W (ix2 r c) := by
  rw [linear_ix2, linear_ix2]
  exact Finset.sum_congr rfl fun k _ => by rw [h k]

end Cert.Gcn

end
-- ==== Proof.LibBiasRow.lean ====
/-
  A bias row added to every row of a matrix inside a kernel, read at an entry, at the ideal values.

  The bias arrives as a one-row matrix `[1, K]`. The kernel re-casts both operands to their own shapes (the identity),
  broadcasts the row down the `R` rows, adds, and — for a layer with a rectifier — takes the maximum with a splat zero.
  At entry `(p, k)` that is `A[p,k] + b[0,k]`, respectively `max (A[p,k] + b[0,k]) 0`, the `0` being the all-zero word, which
  is never evaluated. `rowOf` reads the one-row matrix as the vector of its row, so that the result is `biasRelu A (rowOf b)`
  (or `addBias A (rowOf b)`) in the vocabulary of the dense stages; the row of a vector re-cast to one row is the vector.
-/
import proofs.«153111_j23476291240662_1_alg».proof.Proof.LibDenseSpec
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

variable {R K : ℕ}

/-- A row bias added, entry by entry (a layer without a rectifier). -/
def addBias (A : FVec Ideal ⟨2, ![R, K]⟩ .f32) (b : FVec Ideal ⟨1, ![K]⟩ .f32) : FVec Ideal ⟨2, ![R, K]⟩ .f32 :=
  fun i => A i + b (ix1 (i 1))

theorem addBias_ix2 (A : FVec Ideal ⟨2, ![R, K]⟩ .f32) (b : FVec Ideal ⟨1, ![K]⟩ .f32) (r : Fin R) (k : Fin K) :
    addBias A b (ix2 r k) = A (ix2 r k) + b (ix1 k) := rfl

/-- The row of a one-row matrix, as a vector. -/
def rowOf {α : Type} (b : (⟨2, ![1, K]⟩ : Shape).Idx → α) : (⟨1, ![K]⟩ : Shape).Idx → α := fun j => b (ix2 (0 : Fin 1) (j 0))

theorem rowOf_ix1 {α : Type} (b : (⟨2, ![1, K]⟩ : Shape).Idx → α) (k : Fin K) : rowOf b (ix1 k) = b (ix2 (0 : Fin 1) k) := rfl

/-- The row of a vector re-cast to a one-row matrix is the vector. -/
theorem rowOf_shapeCast {α : Type} (b : (⟨1, ![K]⟩ : Shape).Idx → α) (h : (⟨1, ![K]⟩ : Shape).ShapeCasts ⟨2, ![1, K]⟩) :
    rowOf (shapeCast ⟨2, ![1, K]⟩ b h) = b := by
  funext j
  obtain ⟨k, rfl⟩ : ∃ k : Fin K, j = ix1 k := ⟨j 0, eq_ix1 j⟩
  rw [rowOf_ix1, shapeCast_a_1a_apply]

/-- A kernel's `relu (A + b)` with the bias as a one-row block, at entry `(p, k)`. -/
theorem biasRelu_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 (rowOf x1) (ix2 p k) := by
  rw [biasRelu_ix2, rowOf_ix1, maximumf_apply, addf_apply, broadcast_apply, shapeCast_self, shapeCast_self, broadcastTo_1b_ab_apply]
  rfl

/-- A kernel's `A + b` with the bias as a one-row block, at entry `(p, k)`. -/
theorem addBias_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    addf (shapeCast ⟨2, ![R, K]⟩ x0 h1) (broadcastTo ⟨2, ![R, K]⟩ (shapeCast ⟨2, ![1, K]⟩ x1 h2) h3) (ix2 p k)
      = addBias x0 (rowOf x1) (ix2 p k) := by
  rw [addBias_ix2, rowOf_ix1, addf_apply, shapeCast_self, shapeCast_self, broadcastTo_1b_ab_apply]

end Cert.Gcn

end
-- ==== Proof.LibSageSpec.lean ====
/-
  The dense stages of a SAGE graph network (mean-aggregating layers, a mean-pooled two-layer head), as whole-array
  functions on extended reals, generic in the sizes: the layer `combine`, the head `head`, their congruence lemmas for
  reading a row block against the whole arrays, and the three-layer `network` over abstract aggregation and pooling maps.

  One SAGE layer maps node features X (R rows) and their mean-aggregated neighbour features A to
      combine A X Wl Wr b = relu (A · Wl + X · Wr + b),
  the bias b added to every row. The head maps pooled features P to
      head P W1 b1 W2 b2 = relu (P · W1 + b1) · W2 + b2.
  Sums of extended reals may be regrouped and reordered freely (addition is commutative and associative on the extended
  reals, infinities included), which is all that distinguishes the two ways the layer is written:
      (A · Wl + X · Wr) + b   and   (A · Wl + b) + X · Wr.
  The zero of the rectifier is the all-zero 32-bit word read at the ideal values; it is never evaluated.
-/
import proofs.«153111_j23476291240662_1_alg».proof.Proof.LibDenseSpec
import proofs.«153111_j23476291240662_1_alg».proof.Proof.LibBiasRow

noncomputable section

namespace Cert.Sage

open Idealize.ShloMosaic Idealize.ShloMosaic.ValueIdx Cert.Gcn

variable {R K N M : ℕ}

/-- One SAGE layer: `relu (A · Wl + X · Wr + b)`, entry by entry. -/
def combine (A X : FVec Ideal ⟨2, ![R, K]⟩ .f32) (Wl Wr : FVec Ideal ⟨2, ![K, N]⟩ .f32) (b : FVec Ideal ⟨1, ![N]⟩ .f32) :
    FVec Ideal ⟨2, ![R, N]⟩ .f32 :=
  fun i => max (linear A Wl i + linear X Wr i + b (ix1 (i 1))) (Ideal.ofBits .f32 0x00000000#32)

theorem combine_ix2 (A X : FVec Ideal ⟨2, ![R, K]⟩ .f32) (Wl Wr : FVec Ideal ⟨2, ![K, N]⟩ .f32) (b : FVec Ideal ⟨1, ![N]⟩ .f32)
    (r : Fin R) (c : Fin N) :
    combine A X Wl Wr b (ix2 r c)
      = max ((∑ k : Fin K, A (ix2 r k) * Wl (ix2 k c)) + (∑ k : Fin K, X (ix2 r k) * Wr (ix2 k c)) + b (ix1 c))
          (Ideal.ofBits .f32 0x00000000#32) := rfl

/-- The layer written with the bias added before the second product is the same function. -/
theorem combine_bias_first (A X : FVec Ideal ⟨2, ![R, K]⟩ .f32) (Wl Wr : FVec Ideal ⟨2, ![K, N]⟩ .f32) (b : FVec Ideal ⟨1, ![N]⟩ .f32)
    (r : Fin R) (c : Fin N) :
    max ((∑ k : Fin K, A (ix2 r k) * Wl (ix2 k c)) + b (ix1 c) + (∑ k : Fin K, X (ix2 r k) * Wr (ix2 k c)))
        (Ideal.ofBits .f32 0x00000000#32)
      = combine A X Wl Wr b (ix2 r c) := by
  rw [combine_ix2, add_right_comm]

/-- A row block of the layer is the layer of the whole arrays at the block's rows: when row `j 0` of the blocks `a`, `x`
    is row `i 0` of the arrays `A`, `X`, the weights and the bias are the same and the column is the same, the block's
    entry at `j` is the arrays' entry at `i`. -/
theorem combine_of_rows {Rb : ℕ} (A X : FVec Ideal ⟨2, ![R, K]⟩ .f32) (a x : FVec Ideal ⟨2, ![Rb, K]⟩ .f32)
    (Wl Wr wl wr : FVec Ideal ⟨2, ![K, N]⟩ .f32) (b b' : FVec Ideal ⟨1, ![N]⟩ .f32)
    (j : (⟨2, ![Rb, N]⟩ : Shape).Idx) (i : (⟨2, ![R, N]⟩ : Shape).Idx)
    (ha : ∀ k : Fin K, a (ix2 (j 0) k) = A (ix2 (i 0) k)) (hx : ∀ k : Fin K, x (ix2 (j 0) k) = X (ix2 (i 0) k))
    (hwl : wl = Wl) (hwr : wr = Wr) (hb : b' = b) (hc : (j 1).val = (i 1).val) :
    combine a x wl wr b' j = combine A X Wl Wr b i := by
  subst hwl hwr hb
  have hc' : j 1 = i 1 := Fin.ext hc
  unfold combine linear
  simp only [ha, hx, hc']

/-- The head: `relu (P · W1 + b1) · W2 + b2`, entry by entry. -/
def head (P : FVec Ideal ⟨2, ![R, K]⟩ .f32) (W1 : FVec Ideal ⟨2, ![K, N]⟩ .f32) (b1 : FVec Ideal ⟨1, ![N]⟩ .f32)
    (W2 : FVec Ideal ⟨2, ![N, M]⟩ .f32) (b2 : FVec Ideal ⟨1, ![M]⟩ .f32) : FVec Ideal ⟨2, ![R, M]⟩ .f32 :=
  addBias (linear (biasRelu (linear P W1) b1) W2) b2

theorem head_ix2 (P : FVec Ideal ⟨2, ![R, K]⟩ .f32) (W1 : FVec Ideal ⟨2, ![K, N]⟩ .f32) (b1 : FVec Ideal ⟨1, ![N]⟩ .f32)
    (W2 : FVec Ideal ⟨2, ![N, M]⟩ .f32) (b2 : FVec Ideal ⟨1, ![M]⟩ .f32) (r : Fin R) (c : Fin M) :
    head P W1 b1 W2 b2 (ix2 r c)
      = (∑ n : Fin N, max ((∑ k : Fin K, P (ix2 r k) * W1 (ix2 k n)) + b1 (ix1 n)) (Ideal.ofBits .f32 0x00000000#32) * W2 (ix2 n c))
          + b2 (ix1 c) := rfl

/-- The head at equal arguments. -/
theorem head_congr {p P : FVec Ideal ⟨2, ![R, K]⟩ .f32} {w1 W1 : FVec Ideal ⟨2, ![K, N]⟩ .f32} {b1 B1 : FVec Ideal ⟨1, ![N]⟩ .f32}
    {w2 W2 : FVec Ideal ⟨2, ![N, M]⟩ .f32} {b2 B2 : FVec Ideal ⟨1, ![M]⟩ .f32} {j i : (⟨2, ![R, M]⟩ : Shape).Idx}
    (hp : p = P) (h1 : w1 = W1) (hb1 : b1 = B1) (h2 : w2 = W2) (hb2 : b2 = B2) (hj : j = i) :
    head p w1 b1 w2 b2 j = head P W1 B1 W2 B2 i := by
  subst hp h1 hb1 h2 hb2 hj
  rfl

/-- One layer applied to features `h` whose neighbour aggregate is `agg h`. -/
def layerStep (agg : FVec Ideal ⟨2, ![R, K]⟩ .f32 → FVec Ideal ⟨2, ![R, K]⟩ .f32) (h : FVec Ideal ⟨2, ![R, K]⟩ .f32)
    (Wl Wr : FVec Ideal ⟨2, ![K, K]⟩ .f32) (b : FVec Ideal ⟨1, ![K]⟩ .f32) : FVec Ideal ⟨2, ![R, K]⟩ .f32 :=
  combine (agg h) h Wl Wr b

/-- The whole network: three layers over one neighbour-aggregation map `agg`, a pooling map `pool` onto `G` graphs,
    and the head. The weights are taken already transposed (input index first). -/
def network {G : ℕ} (agg : FVec Ideal ⟨2, ![R, K]⟩ .f32 → FVec Ideal ⟨2, ![R, K]⟩ .f32)
    (pool : FVec Ideal ⟨2, ![R, K]⟩ .f32 → FVec Ideal ⟨2, ![G, K]⟩ .f32)
    (x : FVec Ideal ⟨2, ![R, K]⟩ .f32)
    (W1l W1r W2l W2r W3l W3r : FVec Ideal ⟨2, ![K, K]⟩ .f32) (b1 b2 b3 : FVec Ideal ⟨1, ![K]⟩ .f32)
    (Wf1 : FVec Ideal ⟨2, ![K, N]⟩ .f32) (bf1 : FVec Ideal ⟨1, ![N]⟩ .f32)
    (Wf2 : FVec Ideal ⟨2, ![N, M]⟩ .f32) (bf2 : FVec Ideal ⟨1, ![M]⟩ .f32) : FVec Ideal ⟨2, ![G, M]⟩ .f32 :=
  head (pool (layerStep agg (layerStep agg (layerStep agg x W1l W1r b1) W2l W2r b2) W3l W3r b3)) Wf1 bf1 Wf2 bf2

end Cert.Sage

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.KernelBody.lean ====
/-
  What each kernel body stores, as a whole-block function of the blocks it loads, at the ideal values.

  A SAGE layer's body stores relu (agg · Wl + x · Wr + b) of its row block: two products into zero accumulators (the
  narrowing of the operands to a shorter float format is the identity on extended reals), their sum, the one-row bias
  broadcast down the rows, and the maximum with a splat zero. The head's body stores relu (p · W1 + b1) · W2 + b2.
  Each product, read at an entry, is the plain sum over the contracted index.
-/
import proofs.«153111_j23476291240662_1_alg».proof.Proof.Gen.KernelIdeal.Skeleton
import proofs.«153111_j23476291240662_1_alg».proof.Proof.LibSageSpec
import proofs.«153111_j23476291240662_1_alg».proof.Proof.LibMatmulSum
import Idealize.ShloMosaic.Lib.Pipeline.Value
import Idealize.ShloMosaic.Lib.ValueIdx
import Idealize.ShloMosaic.Lib.ValueLayout

noncomputable section

namespace Cert.KernelIdeal.Body

open Idealize.ShloMosaic Idealize.ShloMosaic.ValueIdx Cert.KernelIdeal Cert.KernelIdeal.Gen Cert.Gcn Cert.Sage Cert.GraphConv

/-! ## The three contraction records: which operand coordinate each output and contraction coordinate feeds -/

theorem layerDot_l0 (i : S5000x90.Idx) (q : dot_S5000x90_S90x90_S5000x90_1_0_0_1_n_n.contr.Idx) :
    (dot_S5000x90_S90x90_S5000x90_1_0_0_1_n_n.lhsIdx i q 0).val = (i 0).val := by
  unfold DotDims.lhsIdx
  rw [dif_neg (show ¬(0 : Fin S5000x90.rank) ∈ dot_S5000x90_S90x90_S5000x90_1_0_0_1_n_n.lhsBatch by decide),
    dif_pos (show (0 : Fin S5000x90.rank) ∈ dot_S5000x90_S90x90_S5000x90_1_0_0_1_n_n.lhsNonContracting by decide)]
  rfl
theorem layerDot_r1 (i : S5000x90.Idx) (q : dot_S5000x90_S90x90_S5000x90_1_0_0_1_n_n.contr.Idx) :
    (dot_S5000x90_S90x90_S5000x90_1_0_0_1_n_n.rhsIdx i q 1).val = (i 1).val := by
  unfold DotDims.rhsIdx
  rw [dif_neg (show ¬(1 : Fin S90x90.rank) ∈ dot_S5000x90_S90x90_S5000x90_1_0_0_1_n_n.rhsBatch by decide),
    dif_pos (show (1 : Fin S90x90.rank) ∈ dot_S5000x90_S90x90_S5000x90_1_0_0_1_n_n.rhsNonContracting by decide)]
  rfl

theorem headDot1_l0 (i : S64x32.Idx) (q : dot_S64x90_S90x32_S64x32_1_0_0_1_n_n.contr.Idx) :
    (dot_S64x90_S90x32_S64x32_1_0_0_1_n_n.lhsIdx i q 0).val = (i 0).val := by
  unfold DotDims.lhsIdx
  rw [dif_neg (show ¬(0 : Fin S64x90.rank) ∈ dot_S64x90_S90x32_S64x32_1_0_0_1_n_n.lhsBatch by decide),
    dif_pos (show (0 : Fin S64x90.rank) ∈ dot_S64x90_S90x32_S64x32_1_0_0_1_n_n.lhsNonContracting by decide)]
  rfl
theorem headDot1_r1 (i : S64x32.Idx) (q : dot_S64x90_S90x32_S64x32_1_0_0_1_n_n.contr.Idx) :
    (dot_S64x90_S90x32_S64x32_1_0_0_1_n_n.rhsIdx i q 1).val = (i 1).val := by
  unfold DotDims.rhsIdx
  rw [dif_neg (show ¬(1 : Fin S90x32.rank) ∈ dot_S64x90_S90x32_S64x32_1_0_0_1_n_n.rhsBatch by decide),
    dif_pos (show (1 : Fin S90x32.rank) ∈ dot_S64x90_S90x32_S64x32_1_0_0_1_n_n.rhsNonContracting by decide)]
  rfl

theorem headDot2_l0 (i : S64x1.Idx) (q : dot_S64x32_S32x1_S64x1_1_0_0_1_n_n.contr.Idx) :
    (dot_S64x32_S32x1_S64x1_1_0_0_1_n_n.lhsIdx i q 0).val = (i 0).val := by
  unfold DotDims.lhsIdx
  rw [dif_neg (show ¬(0 : Fin S64x32.rank) ∈ dot_S64x32_S32x1_S64x1_1_0_0_1_n_n.lhsBatch by decide),
    dif_pos (show (0 : Fin S64x32.rank) ∈ dot_S64x32_S32x1_S64x1_1_0_0_1_n_n.lhsNonContracting by decide)]
  rfl
theorem headDot2_r1 (i : S64x1.Idx) (q : dot_S64x32_S32x1_S64x1_1_0_0_1_n_n.contr.Idx) :
    (dot_S64x32_S32x1_S64x1_1_0_0_1_n_n.rhsIdx i q 1).val = (i 1).val := by
  unfold DotDims.rhsIdx
  rw [dif_neg (show ¬(1 : Fin S32x1.rank) ∈ dot_S64x32_S32x1_S64x1_1_0_0_1_n_n.rhsBatch by decide),
    dif_pos (show (1 : Fin S32x1.rank) ∈ dot_S64x32_S32x1_S64x1_1_0_0_1_n_n.rhsNonContracting by decide)]
  rfl

/-- A layer's product of a row block with a weight matrix, into a zero accumulator, at an entry. -/
theorem layerDot_sum {φ₁ φ₂ : FTy} (l : FVec Ideal S5000x90 φ₁) (r : FVec Ideal S90x90 φ₂) (i : S5000x90.Idx) :
    FloatOps.matmul dot_S5000x90_S90x90_S5000x90_1_0_0_1_n_n none l r (constant (F := Ideal) S5000x90 .f32 0x00000000#32) i
      = ∑ k : Fin 90, l (ix2 (i 0) k) * r (ix2 k (i 1)) :=
  matmul_zero_sum (R := 5000) (K := 90) (N := 90) dot_S5000x90_S90x90_S5000x90_1_0_0_1_n_n none rfl rfl layerDot_l0
    (fun i q => dot_S5000x90_S90x90_S5000x90_1_0_0_1_n_n.lhsIdx_val_of_single rfl i q)
    (fun i q => dot_S5000x90_S90x90_S5000x90_1_0_0_1_n_n.rhsIdx_val_of_single rfl i q) layerDot_r1 l r i

theorem headDot1_sum {φ₁ φ₂ : FTy} (l : FVec Ideal S64x90 φ₁) (r : FVec Ideal S90x32 φ₂) (i : S64x32.Idx) :
    FloatOps.matmul dot_S64x90_S90x32_S64x32_1_0_0_1_n_n none l r (constant (F := Ideal) S64x32 .f32 0x00000000#32) i
      = ∑ k : Fin 90, l (ix2 (i 0) k) * r (ix2 k (i 1)) :=
  matmul_zero_sum (R := 64) (K := 90) (N := 32) dot_S64x90_S90x32_S64x32_1_0_0_1_n_n none rfl rfl headDot1_l0
    (fun i q => dot_S64x90_S90x32_S64x32_1_0_0_1_n_n.lhsIdx_val_of_single rfl i q)
    (fun i q => dot_S64x90_S90x32_S64x32_1_0_0_1_n_n.rhsIdx_val_of_single rfl i q) headDot1_r1 l r i

theorem headDot2_sum {φ₁ φ₂ : FTy} (l : FVec Ideal S64x32 φ₁) (r : FVec Ideal S32x1 φ₂) (i : S64x1.Idx) :
    FloatOps.matmul dot_S64x32_S32x1_S64x1_1_0_0_1_n_n none l r (constant (F := Ideal) S64x1 .f32 0x00000000#32) i
      = ∑ k : Fin 32, l (ix2 (i 0) k) * r (ix2 k (i 1)) :=
  matmul_zero_sum (R := 64) (K := 32) (N := 1) dot_S64x32_S32x1_S64x1_1_0_0_1_n_n none rfl rfl headDot2_l0
    (fun i q => dot_S64x32_S32x1_S64x1_1_0_0_1_n_n.lhsIdx_val_of_single rfl i q)
    (fun i q => dot_S64x32_S32x1_S64x1_1_0_0_1_n_n.rhsIdx_val_of_single rfl i q) headDot2_r1 l r i

/-! ## The stored blocks -/

/-- The first layer's stored block is the layer function of its loaded blocks. -/
theorem layer0_block (v0 v3 : Vec Ideal S5000x90 .f32) (v5 v8 : Vec Ideal S90x90 .f32) (v11 : Vec Ideal S1x90 .f32) :
    k0_pay1 (F := Ideal) v0 v3 v5 v8 v11 = combine (R := 5000) (K := 90) (N := 90) v0 v3 v5 v8 (rowOf v11) := by
  funext j
  obtain ⟨p, q, rfl⟩ : ∃ (p : Fin 5000) (q : Fin 90), j = ix2 p q := ⟨j 0, j 1, eq_ix2 j⟩
  rw [combine_ix2, rowOf_ix1]
  unfold k0_pay1
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · refine (layerDot_sum _ _ _).trans (Finset.sum_congr rfl fun k _ => ?_)
      simp only [shapeCast_self] <;> rfl
    · refine (layerDot_sum _ _ _).trans (Finset.sum_congr rfl fun k _ => ?_)
      simp only [shapeCast_self] <;> rfl
  · rw [shapeCast_self]
    exact broadcastTo_1b_ab_apply (a := 5000) (b := 90) v11 _ p q

theorem layer1_block (v0 v3 : Vec Ideal S5000x90 .f32) (v6 v9 : Vec Ideal S90x90 .f32) (v12 : Vec Ideal S1x90 .f32) :
    k1_pay1 (F := Ideal) v0 v3 v6 v9 v12 = combine (R := 5000) (K := 90) (N := 90) v0 v3 v6 v9 (rowOf v12) := by
  funext j
  obtain ⟨p, q, rfl⟩ : ∃ (p : Fin 5000) (q : Fin 90), j = ix2 p q := ⟨j 0, j 1, eq_ix2 j⟩
  rw [combine_ix2, rowOf_ix1]
  unfold k1_pay1
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · refine (layerDot_sum _ _ _).trans (Finset.sum_congr rfl fun k _ => ?_)
      simp only [shapeCast_self] <;> rfl
    · refine (layerDot_sum _ _ _).trans (Finset.sum_congr rfl fun k _ => ?_)
      simp only [shapeCast_self] <;> rfl
  · rw [shapeCast_self]
    exact broadcastTo_1b_ab_apply (a := 5000) (b := 90) v12 _ p q

theorem layer2_block (v0 v3 : Vec Ideal S5000x90 .f32) (v6 v9 : Vec Ideal S90x90 .f32) (v12 : Vec Ideal S1x90 .f32) :
    k2_pay1 (F := Ideal) v0 v3 v6 v9 v12 = combine (R := 5000) (K := 90) (N := 90) v0 v3 v6 v9 (rowOf v12) := by
  funext j
  obtain ⟨p, q, rfl⟩ : ∃ (p : Fin 5000) (q : Fin 90), j = ix2 p q := ⟨j 0, j 1, eq_ix2 j⟩
  rw [combine_ix2, rowOf_ix1]
  unfold k2_pay1
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · refine (layerDot_sum _ _ _).trans (Finset.sum_congr rfl fun k _ => ?_)
      simp only [shapeCast_self] <;> rfl
    · refine (layerDot_sum _ _ _).trans (Finset.sum_congr rfl fun k _ => ?_)
      simp only [shapeCast_self] <;> rfl
  · rw [shapeCast_self]
    exact broadcastTo_1b_ab_apply (a := 5000) (b := 90) v12 _ p q

/-- The head's stored block is the head function of its loaded blocks. -/
theorem head_block (v0 : Vec Ideal S64x90 .f32) (v3 : Vec Ideal S90x32 .f32) (v6 : Vec Ideal S1x32 .f32)
    (v14 : Vec Ideal S32x1 .f32) (v17 : Vec Ideal S1x1 .f32) :
    k3_pay1 (F := Ideal) v0 v3 v6 v14 v17
      = head (R := 64) (K := 90) (N := 32) (M := 1) v0 v3 (rowOf v6) v14 (rowOf v17) := by
  funext j
  obtain ⟨p, q, rfl⟩ : ∃ (p : Fin 64) (q : Fin 1), j = ix2 p q := ⟨j 0, j 1, eq_ix2 j⟩
  rw [head_ix2, rowOf_ix1]
  unfold k3_pay1
  refine (addf_apply _ _ _).trans ?_
  refine congrArg₂ (· + ·) ?_ ?_
  · refine (headDot2_sum _ _ _).trans ?_
    refine Finset.sum_congr rfl fun n _ => ?_
    refine congrArg₂ (· * ·) ?_ ?_
    · refine (truncf_apply (ψ := .bf16) _ bitsLt_bf16_f32 _).trans ?_
      refine (maximumf_apply _ _ _).trans ?_
      refine congrArg₂ max ?_ rfl
      refine (addf_apply _ _ _).trans ?_
      refine congrArg₂ (· + ·) ?_ ?_
      · refine (headDot1_sum _ _ _).trans (Finset.sum_congr rfl fun k _ => ?_)
        simp only [shapeCast_self] <;> rfl
      · rw [shapeCast_self, rowOf_ix1]
        exact broadcastTo_1b_ab_apply (a := 64) (b := 32) v6 _ p n
    · simp only [shapeCast_self] <;> rfl
  · rw [shapeCast_self]
    exact broadcastTo_1b_ab_apply (a := 64) (b := 1) v17 _ p q

end Cert.KernelIdeal.Body

end
-- ==== Proof.KernelRegions.lean ====
/-
  Each pallas region's result array as one function of the arrays the region finds on entry.

  A SAGE layer's region walks ten row blocks of 5000 rows; at each it loads the matching row blocks of the aggregated
  features and of the features, the whole of both weight matrices and of the bias row, and writes back the layer of those
  blocks. A row of the layer depends only on the same row of its two feature inputs, so the block written at a point is
  the row block of the layer of the whole arrays, and the ten blocks tile the result. The head's region has one point
  and every window whole.
-/
import proofs.«153111_j23476291240662_1_alg».proof.Proof.Gen.KernelIdeal.Frame
import proofs.«153111_j23476291240662_1_alg».proof.Proof.KernelBody
import Idealize.ShloMosaic.Lib.Pipeline.Value

set_option maxRecDepth 16384

noncomputable section

namespace Cert.KernelIdeal.Regions

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Gcn Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## Layer 0 (region 0): the result array from the region's entry contents -/

/-- The printed index maps of region 0, decided over its ten grid points: the two row-block inputs move with the output's
    row block, every other window stays at block (0, 0), and the output's row-block index is at most 9. -/
theorem idx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block is some point's. -/
theorem onto0 : ∀ q0 : Fin 10, ∃ t : Fin cfg0.N, win0_5.index t = ![q0.val, 0] :=
  (by decide +kernel : ∀ q0 : Fin 10, ∃ t : Fin grid0.N, win0_5.index t = ![q0.val, 0])

/-- The layer applied to the arrays as region 0 finds them: aggregated features, features, the two transposed weight
    matrices and the bias row. -/
def layer0 (c : Dev nD) : S50000x90.Idx → EReal :=
  combine (R := 50000) (K := 90) (N := 90) (V c main_v22) (V c main_arg0) (V c main_v23) (V c main_v24) (rowOf (V c main_v25))

/-- What point `t` writes back is row block `t` of the layer of the whole arrays. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz]
  simp only [View.ld_unit_zero (S := S5000x90) hz, View.ld_unit_zero (S := S90x90) hz, View.ld_unit_zero (S := S1x90) hz]
  rw [Body.layer0_block]
  obtain ⟨e00, e01, e10, e11, e20, e21, e30, e31, e40, e41, e51, e5⟩ := idx0 t
  funext j
  show combine (R := 5000) (K := 90) (N := 90) (iblk0 V c 0 t) (iblk0 V c 1 t) (iblk0 V c 2 t) (iblk0 V c 4 t) (rowOf (iblk0 V c 3 t)) j
     = layer0 V c (((cfg0.win 5).blk t).view.emb j)
  unfold layer0
  refine combine_of_rows _ _ _ _ _ _ _ _ _ _ j _ (fun k => ?_) (fun k => ?_) ?_ ?_ ?_ ?_
  · show V c main_v22 (((cfg0.win 0).blk t).view.emb (ix2 (j 0) k)) = V c main_v22 (ix2 ((((cfg0.win 5).blk t).view.emb j) 0) k)
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 90 + 1 * k.val = k.val; omega
  · show V c main_arg0 (((cfg0.win 1).blk t).view.emb (ix2 (j 0) k)) = V c main_arg0 (ix2 ((((cfg0.win 5).blk t).view.emb j) 0) k)
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 90 + 1 * k.val = k.val; omega
  · funext y
    show V c main_v23 (((cfg0.win 2).blk t).view.emb y) = V c main_v23 y
    refine congrArg _ (funext fun a => Fin.ext ?_)
    match a with
    | ⟨0, _⟩ => show win0_2.index t (0 : Fin 2) * 90 + 1 * (y 0).val = (y 0).val; omega
    | ⟨1, _⟩ => show win0_2.index t (1 : Fin 2) * 90 + 1 * (y 1).val = (y 1).val; omega
  · funext y
    show V c main_v24 (((cfg0.win 4).blk t).view.emb y) = V c main_v24 y
    refine congrArg _ (funext fun a => Fin.ext ?_)
    match a with
    | ⟨0, _⟩ => show win0_4.index t (0 : Fin 2) * 90 + 1 * (y 0).val = (y 0).val; omega
    | ⟨1, _⟩ => show win0_4.index t (1 : Fin 2) * 90 + 1 * (y 1).val = (y 1).val; omega
  · refine congrArg rowOf ?_
    funext y
    show V c main_v25 (((cfg0.win 3).blk t).view.emb y) = V c main_v25 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 90 + 1 * (y 1).val = (y 1).val; omega
  · show (j 1).val = win0_5.index t (1 : Fin 2) * 90 + 1 * (j 1).val
    omega

/-- An index of the result array is in point `t`'s block iff each coordinate is in the block's range on its axis. -/
theorem mem_blk0 (t : Fin cfg0.N) (i : S50000x90.Idx) :
    i ∈ ((cfg0.win 5).blk t).view.set ↔ ∀ a : Fin 2, win0_5.index t a * S5000x90.size a ≤ (i a).val ∧ (i a).val < win0_5.index t a * S5000x90.size a + S5000x90.size a := by
  show i ∈ ((View.whole main_v26).slice (win0_5.rect t)).set ↔ _
  rw [View.set_slice_whole, Rect.mem_set_unit]
  exact Iff.rfl

/-- The ten row blocks cover the result array: row `r` is in block `r / 5000`. -/
theorem cover0 (i : S50000x90.Idx) : ∃ t : Fin cfg0.N, (cfg0.win 5).flush t = true ∧ i ∈ ((cfg0.win 5).blk t).view.set := by
  have hi0 : (i 0).val < 50000 := (i 0).isLt
  have hi1 : (i 1).val < 90 := (i 1).isLt
  obtain ⟨t, ht⟩ := onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 90 ≤ (i 1).val ∧ (i 1).val < win0_5.index t (1 : Fin 2) * 90 + 90; omega

/-- Region 0's result array after the region is the layer of the arrays it found. -/
theorem array0 (c : Dev nD) : (dat0 V c).arrAt 5 cfg0.N = layer0 V c :=
  (dat0 V c).arrAt_eq_of_cover 5 (layer0 V c) (fun t _ => flushed0 V c t) (cover0)

/-! ## Layer 1 (region 1): the result array from the region's entry contents -/

/-- The printed index maps of region 1, decided over its ten grid points: the two row-block inputs move with the output's
    row block, every other window stays at block (0, 0), and the output's row-block index is at most 9. -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block is some point's. -/
theorem onto1 : ∀ q0 : Fin 10, ∃ t : Fin cfg1.N, win1_5.index t = ![q0.val, 0] :=
  (by decide +kernel : ∀ q0 : Fin 10, ∃ t : Fin grid1.N, win1_5.index t = ![q0.val, 0])

/-- The layer applied to the arrays as region 1 finds them: aggregated features, features, the two transposed weight
    matrices and the bias row. -/
def layer1 (c : Dev nD) : S50000x90.Idx → EReal :=
  combine (R := 50000) (K := 90) (N := 90) (V c main_v45) (V c main_v26) (V c main_v46) (V c main_v47) (rowOf (V c main_v48))

/-- What point `t` writes back is row block `t` of the layer of the whole arrays. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz]
  simp only [View.ld_unit_zero (S := S5000x90) hz, View.ld_unit_zero (S := S90x90) hz, View.ld_unit_zero (S := S1x90) hz]
  rw [Body.layer1_block]
  obtain ⟨e00, e01, e10, e11, e20, e21, e30, e31, e40, e41, e51, e5⟩ := idx1 t
  funext j
  show combine (R := 5000) (K := 90) (N := 90) (iblk1 V c 0 t) (iblk1 V c 1 t) (iblk1 V c 2 t) (iblk1 V c 4 t) (rowOf (iblk1 V c 3 t)) j
     = layer1 V c (((cfg1.win 5).blk t).view.emb j)
  unfold layer1
  refine combine_of_rows _ _ _ _ _ _ _ _ _ _ j _ (fun k => ?_) (fun k => ?_) ?_ ?_ ?_ ?_
  · show V c main_v45 (((cfg1.win 0).blk t).view.emb (ix2 (j 0) k)) = V c main_v45 (ix2 ((((cfg1.win 5).blk t).view.emb j) 0) k)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 90 + 1 * k.val = k.val; omega
  · show V c main_v26 (((cfg1.win 1).blk t).view.emb (ix2 (j 0) k)) = V c main_v26 (ix2 ((((cfg1.win 5).blk t).view.emb j) 0) k)
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 90 + 1 * k.val = k.val; omega
  · funext y
    show V c main_v46 (((cfg1.win 2).blk t).view.emb y) = V c main_v46 y
    refine congrArg _ (funext fun a => Fin.ext ?_)
    match a with
    | ⟨0, _⟩ => show win1_2.index t (0 : Fin 2) * 90 + 1 * (y 0).val = (y 0).val; omega
    | ⟨1, _⟩ => show win1_2.index t (1 : Fin 2) * 90 + 1 * (y 1).val = (y 1).val; omega
  · funext y
    show V c main_v47 (((cfg1.win 4).blk t).view.emb y) = V c main_v47 y
    refine congrArg _ (funext fun a => Fin.ext ?_)
    match a with
    | ⟨0, _⟩ => show win1_4.index t (0 : Fin 2) * 90 + 1 * (y 0).val = (y 0).val; omega
    | ⟨1, _⟩ => show win1_4.index t (1 : Fin 2) * 90 + 1 * (y 1).val = (y 1).val; omega
  · refine congrArg rowOf ?_
    funext y
    show V c main_v48 (((cfg1.win 3).blk t).view.emb y) = V c main_v48 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 90 + 1 * (y 1).val = (y 1).val; omega
  · show (j 1).val = win1_5.index t (1 : Fin 2) * 90 + 1 * (j 1).val
    omega

/-- An index of the result array is in point `t`'s block iff each coordinate is in the block's range on its axis. -/
theorem mem_blk1 (t : Fin cfg1.N) (i : S50000x90.Idx) :
    i ∈ ((cfg1.win 5).blk t).view.set ↔ ∀ a : Fin 2, win1_5.index t a * S5000x90.size a ≤ (i a).val ∧ (i a).val < win1_5.index t a * S5000x90.size a + S5000x90.size a := by
  show i ∈ ((View.whole main_v49).slice (win1_5.rect t)).set ↔ _
  rw [View.set_slice_whole, Rect.mem_set_unit]
  exact Iff.rfl

/-- The ten row blocks cover the result array: row `r` is in block `r / 5000`. -/
theorem cover1 (i : S50000x90.Idx) : ∃ t : Fin cfg1.N, (cfg1.win 5).flush t = true ∧ i ∈ ((cfg1.win 5).blk t).view.set := by
  have hi0 : (i 0).val < 50000 := (i 0).isLt
  have hi1 : (i 1).val < 90 := (i 1).isLt
  obtain ⟨t, ht⟩ := onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 90 ≤ (i 1).val ∧ (i 1).val < win1_5.index t (1 : Fin 2) * 90 + 90; omega

/-- Region 1's result array after the region is the layer of the arrays it found. -/
theorem array1 (c : Dev nD) : (dat1 V c).arrAt 5 cfg1.N = layer1 V c :=
  (dat1 V c).arrAt_eq_of_cover 5 (layer1 V c) (fun t _ => flushed1 V c t) (cover1)

/-! ## Layer 2 (region 2): the result array from the region's entry contents -/

/-- The printed index maps of region 2, decided over its ten grid points: the two row-block inputs move with the output's
    row block, every other window stays at block (0, 0), and the output's row-block index is at most 9. -/
theorem idx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every row block is some point's. -/
theorem onto2 : ∀ q0 : Fin 10, ∃ t : Fin cfg2.N, win2_5.index t = ![q0.val, 0] :=
  (by decide +kernel : ∀ q0 : Fin 10, ∃ t : Fin grid2.N, win2_5.index t = ![q0.val, 0])

/-- The layer applied to the arrays as region 2 finds them: aggregated features, features, the two transposed weight
    matrices and the bias row. -/
def layer2 (c : Dev nD) : S50000x90.Idx → EReal :=
  combine (R := 50000) (K := 90) (N := 90) (V c main_v68) (V c main_v49) (V c main_v69) (V c main_v70) (rowOf (V c main_v71))

/-- What point `t` writes back is row block `t` of the layer of the whole arrays. -/
theorem flushed2 (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero hz]
  simp only [View.ld_unit_zero (S := S5000x90) hz, View.ld_unit_zero (S := S90x90) hz, View.ld_unit_zero (S := S1x90) hz]
  rw [Body.layer2_block]
  obtain ⟨e00, e01, e10, e11, e20, e21, e30, e31, e40, e41, e51, e5⟩ := idx2 t
  funext j
  show combine (R := 5000) (K := 90) (N := 90) (iblk2 V c 0 t) (iblk2 V c 1 t) (iblk2 V c 2 t) (iblk2 V c 4 t) (rowOf (iblk2 V c 3 t)) j
     = layer2 V c (((cfg2.win 5).blk t).view.emb j)
  unfold layer2
  refine combine_of_rows _ _ _ _ _ _ _ _ _ _ j _ (fun k => ?_) (fun k => ?_) ?_ ?_ ?_ ?_
  · show V c main_v68 (((cfg2.win 0).blk t).view.emb (ix2 (j 0) k)) = V c main_v68 (ix2 ((((cfg2.win 5).blk t).view.emb j) 0) k)
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 90 + 1 * k.val = k.val; omega
  · show V c main_v49 (((cfg2.win 1).blk t).view.emb (ix2 (j 0) k)) = V c main_v49 (ix2 ((((cfg2.win 5).blk t).view.emb j) 0) k)
    refine congrArg _ (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 90 + 1 * k.val = k.val; omega
  · funext y
    show V c main_v69 (((cfg2.win 2).blk t).view.emb y) = V c main_v69 y
    refine congrArg _ (funext fun a => Fin.ext ?_)
    match a with
    | ⟨0, _⟩ => show win2_2.index t (0 : Fin 2) * 90 + 1 * (y 0).val = (y 0).val; omega
    | ⟨1, _⟩ => show win2_2.index t (1 : Fin 2) * 90 + 1 * (y 1).val = (y 1).val; omega
  · funext y
    show V c main_v70 (((cfg2.win 4).blk t).view.emb y) = V c main_v70 y
    refine congrArg _ (funext fun a => Fin.ext ?_)
    match a with
    | ⟨0, _⟩ => show win2_4.index t (0 : Fin 2) * 90 + 1 * (y 0).val = (y 0).val; omega
    | ⟨1, _⟩ => show win2_4.index t (1 : Fin 2) * 90 + 1 * (y 1).val = (y 1).val; omega
  · refine congrArg rowOf ?_
    funext y
    show V c main_v71 (((cfg2.win 3).blk t).view.emb y) = V c main_v71 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 90 + 1 * (y 1).val = (y 1).val; omega
  · show (j 1).val = win2_5.index t (1 : Fin 2) * 90 + 1 * (j 1).val
    omega

/-- An index of the result array is in point `t`'s block iff each coordinate is in the block's range on its axis. -/
theorem mem_blk2 (t : Fin cfg2.N) (i : S50000x90.Idx) :
    i ∈ ((cfg2.win 5).blk t).view.set ↔ ∀ a : Fin 2, win2_5.index t a * S5000x90.size a ≤ (i a).val ∧ (i a).val < win2_5.index t a * S5000x90.size a + S5000x90.size a := by
  show i ∈ ((View.whole main_v72).slice (win2_5.rect t)).set ↔ _
  rw [View.set_slice_whole, Rect.mem_set_unit]
  exact Iff.rfl

/-- The ten row blocks cover the result array: row `r` is in block `r / 5000`. -/
theorem cover2 (i : S50000x90.Idx) : ∃ t : Fin cfg2.N, (cfg2.win 5).flush t = true ∧ i ∈ ((cfg2.win 5).blk t).view.set := by
  have hi0 : (i 0).val < 50000 := (i 0).isLt
  have hi1 : (i 1).val < 90 := (i 1).isLt
  obtain ⟨t, ht⟩ := onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 90 ≤ (i 1).val ∧ (i 1).val < win2_5.index t (1 : Fin 2) * 90 + 90; omega

/-- Region 2's result array after the region is the layer of the arrays it found. -/
theorem array2 (c : Dev nD) : (dat2 V c).arrAt 5 cfg2.N = layer2 V c :=
  (dat2 V c).arrAt_eq_of_cover 5 (layer2 V c) (fun t _ => flushed2 V c t) (cover2)

/-! ## The head (region 3): one grid point, every window the whole of its array -/

/-- The printed index maps of region 3 at its one point: every window at block (0, 0). -/
theorem idx3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem onto3 : ∃ t : Fin cfg3.N, win3_5.index t = ![0, 0] :=
  (by decide +kernel : ∃ t : Fin grid3.N, win3_5.index t = ![0, 0])

/-- The head applied to the arrays as region 3 finds them: pooled features, the two transposed weight matrices and the two
    bias rows. -/
def headArr (c : Dev nD) : S64x1.Idx → EReal :=
  head (R := 64) (K := 90) (N := 32) (M := 1) (V c main_v84) (V c main_v85) (rowOf (V c main_v87)) (V c main_v86) (rowOf (V c main_v88))

theorem flushed3 (c : Dev nD) (t : Fin cfg3.N) :
    (dat3 V c).flushed 5 t = ((cfg3.win 5).blk t).view.read (Elt Ideal) (headArr V c) := by
  show (cfg3.win 5).cut (grid3.coords t) ((dat3 V c).after 5 t) = _
  rw [after3_5]
  unfold out3_5
  rw [View.canon_unit_zero hz]
  simp only [View.ld_unit_zero (S := S64x90) hz, View.ld_unit_zero (S := S90x32) hz, View.ld_unit_zero (S := S1x32) hz,
    View.ld_unit_zero (S := S32x1) hz, View.ld_unit_zero (S := S1x1) hz]
  rw [Body.head_block]
  obtain ⟨e00, e01, e10, e11, e20, e21, e30, e31, e40, e41, e50, e51⟩ := idx3 t
  funext j
  show head (R := 64) (K := 90) (N := 32) (M := 1) (iblk3 V c 0 t) (iblk3 V c 1 t) (rowOf (iblk3 V c 2 t)) (iblk3 V c 3 t) (rowOf (iblk3 V c 4 t)) j
     = headArr V c (((cfg3.win 5).blk t).view.emb j)
  unfold headArr
  refine head_congr ?_ ?_ ?_ ?_ ?_ ?_
  · funext y
    show V c main_v84 (((cfg3.win 0).blk t).view.emb y) = V c main_v84 y
    refine congrArg _ (funext fun a => Fin.ext ?_)
    match a with
    | ⟨0, _⟩ => show win3_0.index t (0 : Fin 2) * 64 + 1 * (y 0).val = (y 0).val; omega
    | ⟨1, _⟩ => show win3_0.index t (1 : Fin 2) * 90 + 1 * (y 1).val = (y 1).val; omega
  · funext y
    show V c main_v85 (((cfg3.win 1).blk t).view.emb y) = V c main_v85 y
    refine congrArg _ (funext fun a => Fin.ext ?_)
    match a with
    | ⟨0, _⟩ => show win3_1.index t (0 : Fin 2) * 90 + 1 * (y 0).val = (y 0).val; omega
    | ⟨1, _⟩ => show win3_1.index t (1 : Fin 2) * 32 + 1 * (y 1).val = (y 1).val; omega
  · refine congrArg rowOf ?_
    funext y
    show V c main_v87 (((cfg3.win 2).blk t).view.emb y) = V c main_v87 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 32 + 1 * (y 1).val = (y 1).val; omega
  · funext y
    show V c main_v86 (((cfg3.win 3).blk t).view.emb y) = V c main_v86 y
    refine congrArg _ (funext fun a => Fin.ext ?_)
    match a with
    | ⟨0, _⟩ => show win3_3.index t (0 : Fin 2) * 32 + 1 * (y 0).val = (y 0).val; omega
    | ⟨1, _⟩ => show win3_3.index t (1 : Fin 2) * 1 + 1 * (y 1).val = (y 1).val; omega
  · refine congrArg rowOf ?_
    funext y
    show V c main_v88 (((cfg3.win 4).blk t).view.emb y) = V c main_v88 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 1 + 1 * (y 1).val = (y 1).val; omega
  · funext a
    refine Fin.ext ?_
    match a with
    | ⟨0, _⟩ => show (j 0).val = win3_5.index t (0 : Fin 2) * 64 + 1 * (j 0).val; omega
    | ⟨1, _⟩ => show (j 1).val = win3_5.index t (1 : Fin 2) * 1 + 1 * (j 1).val; omega

theorem mem_blk3 (t : Fin cfg3.N) (i : S64x1.Idx) :
    i ∈ ((cfg3.win 5).blk t).view.set ↔ ∀ a : Fin 2, win3_5.index t a * S64x1.size a ≤ (i a).val ∧ (i a).val < win3_5.index t a * S64x1.size a + S64x1.size a := by
  show i ∈ ((View.whole main_v89).slice (win3_5.rect t)).set ↔ _
  rw [View.set_slice_whole, Rect.mem_set_unit]
  exact Iff.rfl

theorem cover3 (i : S64x1.Idx) : ∃ t : Fin cfg3.N, (cfg3.win 5).flush t = true ∧ i ∈ ((cfg3.win 5).blk t).view.set := by
  have hi0 : (i 0).val < 64 := (i 0).isLt
  have hi1 : (i 1).val < 1 := (i 1).isLt
  obtain ⟨t, ht⟩ := onto3
  have q0 : win3_5.index t (0 : Fin 2) = 0 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 64 ≤ (i 0).val ∧ (i 0).val < win3_5.index t (0 : Fin 2) * 64 + 64; omega
  | ⟨1, _⟩ => show win3_5.index t (1 : Fin 2) * 1 ≤ (i 1).val ∧ (i 1).val < win3_5.index t (1 : Fin 2) * 1 + 1; omega

/-- Region 3's result array after the region is the head of the arrays it found. -/
theorem array3 (c : Dev nD) : (dat3 V c).arrAt 5 cfg3.N = headArr V c :=
  (dat3 V c).arrAt_eq_of_cover 5 (headArr V c) (fun t _ => flushed3 V c t) (cover3)

end Cert.KernelIdeal.Regions

end
-- ==== Proof.KernelValue.lean ====
/-
  The kernel program's result buffer as the network of the dense stages.

  The run's buffer contents at each boundary are a fold from the launch memory: a host stretch applies its operations, a
  region replaces its result array by the layer (or the head) of the arrays it found and leaves every other buffer
  alone. Reading the fold one boundary at a time: the first stretch forms the edge lists, the neighbour aggregate of the
  input features, the transposed weights and the bias row; the first region leaves the first layer's features; the next
  stretch aggregates those; and so on through three layers, the pooling and the head. The aggregation and the pooling
  are kept as whole-array maps of the features and never opened.
-/
import proofs.«153111_j23476291240662_1_alg».proof.Proof.KernelRegions
import Idealize.ShloMosaic.Lib.StableHlo.Run

set_option maxRecDepth 16384

noncomputable section

namespace Cert.KernelIdeal.Net

open Idealize.ShloMosaic Idealize.ShloMosaic.TcCoe Idealize.ShloMosaic.ValueIdx Idealize.ShloMosaic.StableHlo
open Idealize.SL Idealize.SL.Sem
open Cert.KernelIdeal Cert.KernelIdeal.Gen Cert.Gcn Cert.Sage

/-! ## The host stages, as maps of whole arrays -/

/-- The source node of every edge: row 0 of the edge list. -/
def srcVec (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- The target node of every edge: row 1 of the edge list. -/
def dstVec (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- Mean aggregation of the features `h` over the edges from sources `s` to targets `d`: the rows gathered at the
    sources (a negative id wrapped by the node count), added up at the targets, divided by the target's edge count or by
    one where there is none. -/
def aggS (s d : (⟨S800000, .i32⟩ : BufTy).Contents (Elt Ideal)) (h : FVec Ideal S50000x90 .f32) : FVec Ideal S50000x90 .f32 :=
  Host.divf
    (Host.scatterAdd scatter_S50000x90_S800000x1_S800000x90_1_0_0_1
      (broadcastInDim S50000x90 ![] bcast_S_S50000x90 (constant S_ .f32 0x00000000#32))
      (broadcastInDim S800000x1 ![0] bcast_S800000_S800000x1_0 d)
      (Host.gather gather_S50000x90_S800000x1_S800000x90_1_0_n_n_0_1_190 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x90 ![0, 1] bcast_S50000x1_S50000x90_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 d)
            (broadcastInDim S800000 ![] bcast_S_S800000 (constant S_ .f32 0x3F800000#32)))
          (broadcastInDim S50000 ![] bcast_S_S50000 (constant S_ .f32 0x3F800000#32)))))

/-- The aggregation along an edge list. -/
def aggregate (ei : (⟨S2x800000, .i32⟩ : BufTy).Contents (Elt Ideal)) (h : FVec Ideal S50000x90 .f32) : FVec Ideal S50000x90 .f32 :=
  aggS (srcVec ei) (dstVec ei) h

/-- Mean pooling of node features over the graphs named by `batch`. -/
def pooling (batch : (⟨S50000, .i32⟩ : BufTy).Contents (Elt Ideal)) (h : FVec Ideal S50000x90 .f32) : FVec Ideal S64x90 .f32 :=
  Host.divf
    (Host.scatterAdd scatter_S64x90_S50000x1_S50000x90_1_0_0_1
      (broadcastInDim S64x90 ![] bcast_S_S64x90 (constant S_ .f32 0x00000000#32))
      (broadcastInDim S50000x1 ![0] bcast_S50000_S50000x1_0 batch) h)
    (broadcastInDim S64x90 ![0, 1] bcast_S64x1_S64x90_0_1
      (broadcastInDim S64x1 ![0] bcast_S64_S64x1_0
        (maximumf
          (Host.scatterAdd scatter_S64_S50000x1_S50000_n_0_0_1
            (broadcastInDim S64 ![] bcast_S_S64 (constant S_ .f32 0x00000000#32))
            (broadcastInDim S50000x1 ![0] bcast_S50000_S50000x1_0 batch)
            (broadcastInDim S50000 ![] bcast_S_S50000 (constant S_ .f32 0x3F800000#32)))
          (broadcastInDim S64 ![] bcast_S_S64 (constant S_ .f32 0x3F800000#32)))))

/-- A square weight matrix transposed. -/
def tr90 (W : FVec Ideal S90x90 .f32) : FVec Ideal S90x90 .f32 := transpose S90x90 [1, 0] W transposes_S90x90_S90x90_1_0

variable (m : (ℓ : Loc nD τ sig) → Buf (Elt Ideal) ℓ) (ρ : Dev nD → PrngReg)

/-! ## Boundary 1: after the first host stretch -/

theorem b1_v1 (c : Dev nD) : W1 m ρ c (Proc.devRef .tc main_v1) = srcVec (m ((c : Thread nD τ).loc main_arg1)) := by
  show StableHlo.after hostOps0 (W0 m ρ c) (Proc.devRef .tc main_v1) = _
  after_results_simp <;> (try rfl)
theorem b1_v3 (c : Dev nD) : W1 m ρ c (Proc.devRef .tc main_v3) = dstVec (m ((c : Thread nD τ).loc main_arg1)) := by
  show StableHlo.after hostOps0 (W0 m ρ c) (Proc.devRef .tc main_v3) = _
  after_results_simp <;> (try rfl)
theorem b1_v22 (c : Dev nD) : W1 m ρ c (Proc.devRef .tc main_v22) = aggregate (m ((c : Thread nD τ).loc main_arg1)) (m ((c : Thread nD τ).loc main_arg0)) := by
  show StableHlo.after hostOps0 (W0 m ρ c) (Proc.devRef .tc main_v22) = _
  after_results_simp <;> (try rfl)
theorem b1_v23 (c : Dev nD) : W1 m ρ c (Proc.devRef .tc main_v23) = tr90 (m ((c : Thread nD τ).loc main_arg3)) := by
  show StableHlo.after hostOps0 (W0 m ρ c) (Proc.devRef .tc main_v23) = _
  after_results_simp <;> (try rfl)
theorem b1_v24 (c : Dev nD) : W1 m ρ c (Proc.devRef .tc main_v24) = tr90 (m ((c : Thread nD τ).loc main_arg5)) := by
  show StableHlo.after hostOps0 (W0 m ρ c) (Proc.devRef .tc main_v24) = _
  after_results_simp <;> (try rfl)
theorem b1_v25 (c : Dev nD) : W1 m ρ c (Proc.devRef .tc main_v25) = shapeCast S1x90 (m ((c : Thread nD τ).loc main_arg4)) shapeCasts_S90_S1x90 := by
  show StableHlo.after hostOps0 (W0 m ρ c) (Proc.devRef .tc main_v25) = _
  after_results_simp <;> (try rfl)
theorem b1_arg0 (c : Dev nD) : W1 m ρ c (Proc.devRef .tc main_arg0) = (m ((c : Thread nD τ).loc main_arg0)) := by
  show StableHlo.after hostOps0 (W0 m ρ c) (Proc.devRef .tc main_arg0) = _
  after_results_simp <;> (try rfl)
theorem b1_arg2 (c : Dev nD) : W1 m ρ c (Proc.devRef .tc main_arg2) = (m ((c : Thread nD τ).loc main_arg2)) := by
  show StableHlo.after hostOps0 (W0 m ρ c) (Proc.devRef .tc main_arg2) = _
  after_results_simp <;> (try rfl)
theorem b1_arg6 (c : Dev nD) : W1 m ρ c (Proc.devRef .tc main_arg6) = (m ((c : Thread nD τ).loc main_arg6)) := by
  show StableHlo.after hostOps0 (W0 m ρ c) (Proc.devRef .tc main_arg6) = _
  after_results_simp <;> (try rfl)
theorem b1_arg7 (c : Dev nD) : W1 m ρ c (Proc.devRef .tc main_arg7) = (m ((c : Thread nD τ).loc main_arg7)) := by
  show StableHlo.after hostOps0 (W0 m ρ c) (Proc.devRef .tc main_arg7) = _
  after_results_simp <;> (try rfl)
theorem b1_arg8 (c : Dev nD) : W1 m ρ c (Proc.devRef .tc main_arg8) = (m ((c : Thread nD τ).loc main_arg8)) := by
  show StableHlo.after hostOps0 (W0 m ρ c) (Proc.devRef .tc main_arg8) = _
  after_results_simp <;> (try rfl)
theorem b1_arg9 (c : Dev nD) : W1 m ρ c (Proc.devRef .tc main_arg9) = (m ((c : Thread nD τ).loc main_arg9)) := by
  show StableHlo.after hostOps0 (W0 m ρ c) (Proc.devRef .tc main_arg9) = _
  after_results_simp <;> (try rfl)
theorem b1_arg10 (c : Dev nD) : W1 m ρ c (Proc.devRef .tc main_arg10) = (m ((c : Thread nD τ).loc main_arg10)) := by
  show StableHlo.after hostOps0 (W0 m ρ c) (Proc.devRef .tc main_arg10) = _
  after_results_simp <;> (try rfl)
theorem b1_arg11 (c : Dev nD) : W1 m ρ c (Proc.devRef .tc main_arg11) = (m ((c : Thread nD τ).loc main_arg11)) := by
  show StableHlo.after hostOps0 (W0 m ρ c) (Proc.devRef .tc main_arg11) = _
  after_results_simp <;> (try rfl)
theorem b1_arg12 (c : Dev nD) : W1 m ρ c (Proc.devRef .tc main_arg12) = (m ((c : Thread nD τ).loc main_arg12)) := by
  show StableHlo.after hostOps0 (W0 m ρ c) (Proc.devRef .tc main_arg12) = _
  after_results_simp <;> (try rfl)
theorem b1_arg13 (c : Dev nD) : W1 m ρ c (Proc.devRef .tc main_arg13) = (m ((c : Thread nD τ).loc main_arg13)) := by
  show StableHlo.after hostOps0 (W0 m ρ c) (Proc.devRef .tc main_arg13) = _
  after_results_simp <;> (try rfl)
theorem b1_arg14 (c : Dev nD) : W1 m ρ c (Proc.devRef .tc main_arg14) = (m ((c : Thread nD τ).loc main_arg14)) := by
  show StableHlo.after hostOps0 (W0 m ρ c) (Proc.devRef .tc main_arg14) = _
  after_results_simp <;> (try rfl)
theorem b1_arg15 (c : Dev nD) : W1 m ρ c (Proc.devRef .tc main_arg15) = (m ((c : Thread nD τ).loc main_arg15)) := by
  show StableHlo.after hostOps0 (W0 m ρ c) (Proc.devRef .tc main_arg15) = _
  after_results_simp <;> (try rfl)

/-! ## Boundary 2: after the first region -/

theorem b2_v26 (c : Dev nD) : W2 m ρ c (Proc.devRef .tc main_v26) = (layerStep (R := 50000) (K := 90) (aggregate (m ((c : Thread nD τ).loc main_arg1))) (m ((c : Thread nD τ).loc main_arg0)) (tr90 (m ((c : Thread nD τ).loc main_arg3))) (tr90 (m ((c : Thread nD τ).loc main_arg5))) (m ((c : Thread nD τ).loc main_arg4))) := by
  refine (W2_arr m ρ c 5).trans ?_
  rw [Regions.array0 (V1 m ρ) c]
  show combine (R := 50000) (K := 90) (N := 90) (W1 m ρ c (Proc.devRef .tc main_v22)) (W1 m ρ c (Proc.devRef .tc main_arg0)) (W1 m ρ c (Proc.devRef .tc main_v23))
    (W1 m ρ c (Proc.devRef .tc main_v24)) (rowOf (W1 m ρ c (Proc.devRef .tc main_v25))) = _
  rw [b1_v22 m ρ c, b1_arg0 m ρ c, b1_v23 m ρ c, b1_v24 m ρ c, b1_v25 m ρ c, rowOf_shapeCast]
  rfl
theorem b2_v1 (c : Dev nD) : W2 m ρ c (Proc.devRef .tc main_v1) = srcVec (m ((c : Thread nD τ).loc main_arg1)) :=
  (W2_of_ne m ρ c main_v1 (by decide)).trans (b1_v1 m ρ c)
theorem b2_v3 (c : Dev nD) : W2 m ρ c (Proc.devRef .tc main_v3) = dstVec (m ((c : Thread nD τ).loc main_arg1)) :=
  (W2_of_ne m ρ c main_v3 (by decide)).trans (b1_v3 m ρ c)
theorem b2_arg2 (c : Dev nD) : W2 m ρ c (Proc.devRef .tc main_arg2) = (m ((c : Thread nD τ).loc main_arg2)) :=
  (W2_of_ne m ρ c main_arg2 (by decide)).trans (b1_arg2 m ρ c)
theorem b2_arg6 (c : Dev nD) : W2 m ρ c (Proc.devRef .tc main_arg6) = (m ((c : Thread nD τ).loc main_arg6)) :=
  (W2_of_ne m ρ c main_arg6 (by decide)).trans (b1_arg6 m ρ c)
theorem b2_arg7 (c : Dev nD) : W2 m ρ c (Proc.devRef .tc main_arg7) = (m ((c : Thread nD τ).loc main_arg7)) :=
  (W2_of_ne m ρ c main_arg7 (by decide)).trans (b1_arg7 m ρ c)
theorem b2_arg8 (c : Dev nD) : W2 m ρ c (Proc.devRef .tc main_arg8) = (m ((c : Thread nD τ).loc main_arg8)) :=
  (W2_of_ne m ρ c main_arg8 (by decide)).trans (b1_arg8 m ρ c)
theorem b2_arg9 (c : Dev nD) : W2 m ρ c (Proc.devRef .tc main_arg9) = (m ((c : Thread nD τ).loc main_arg9)) :=
  (W2_of_ne m ρ c main_arg9 (by decide)).trans (b1_arg9 m ρ c)
theorem b2_arg10 (c : Dev nD) : W2 m ρ c (Proc.devRef .tc main_arg10) = (m ((c : Thread nD τ).loc main_arg10)) :=
  (W2_of_ne m ρ c main_arg10 (by decide)).trans (b1_arg10 m ρ c)
theorem b2_arg11 (c : Dev nD) : W2 m ρ c (Proc.devRef .tc main_arg11) = (m ((c : Thread nD τ).loc main_arg11)) :=
  (W2_of_ne m ρ c main_arg11 (by decide)).trans (b1_arg11 m ρ c)
theorem b2_arg12 (c : Dev nD) : W2 m ρ c (Proc.devRef .tc main_arg12) = (m ((c : Thread nD τ).loc main_arg12)) :=
  (W2_of_ne m ρ c main_arg12 (by decide)).trans (b1_arg12 m ρ c)
theorem b2_arg13 (c : Dev nD) : W2 m ρ c (Proc.devRef .tc main_arg13) = (m ((c : Thread nD τ).loc main_arg13)) :=
  (W2_of_ne m ρ c main_arg13 (by decide)).trans (b1_arg13 m ρ c)
theorem b2_arg14 (c : Dev nD) : W2 m ρ c (Proc.devRef .tc main_arg14) = (m ((c : Thread nD τ).loc main_arg14)) :=
  (W2_of_ne m ρ c main_arg14 (by decide)).trans (b1_arg14 m ρ c)
theorem b2_arg15 (c : Dev nD) : W2 m ρ c (Proc.devRef .tc main_arg15) = (m ((c : Thread nD τ).loc main_arg15)) :=
  (W2_of_ne m ρ c main_arg15 (by decide)).trans (b1_arg15 m ρ c)

/-! ## Boundary 3: after the second host stretch -/

theorem b3_v1 (c : Dev nD) : W3 m ρ c (Proc.devRef .tc main_v1) = srcVec (m ((c : Thread nD τ).loc main_arg1)) := by
  show StableHlo.after hostOps1 (W2 m ρ c) (Proc.devRef .tc main_v1) = _
  after_results_simp <;> (try rw [b2_v1 m ρ c]) <;> (try rfl)
theorem b3_v3 (c : Dev nD) : W3 m ρ c (Proc.devRef .tc main_v3) = dstVec (m ((c : Thread nD τ).loc main_arg1)) := by
  show StableHlo.after hostOps1 (W2 m ρ c) (Proc.devRef .tc main_v3) = _
  after_results_simp <;> (try rw [b2_v3 m ρ c]) <;> (try rfl)
theorem b3_v26 (c : Dev nD) : W3 m ρ c (Proc.devRef .tc main_v26) = (layerStep (R := 50000) (K := 90) (aggregate (m ((c : Thread nD τ).loc main_arg1))) (m ((c : Thread nD τ).loc main_arg0)) (tr90 (m ((c : Thread nD τ).loc main_arg3))) (tr90 (m ((c : Thread nD τ).loc main_arg5))) (m ((c : Thread nD τ).loc main_arg4))) := by
  show StableHlo.after hostOps1 (W2 m ρ c) (Proc.devRef .tc main_v26) = _
  after_results_simp <;> (try rw [b2_v26 m ρ c]) <;> (try rfl)
theorem b3_v45 (c : Dev nD) : W3 m ρ c (Proc.devRef .tc main_v45) = aggregate (m ((c : Thread nD τ).loc main_arg1)) (layerStep (R := 50000) (K := 90) (aggregate (m ((c : Thread nD τ).loc main_arg1))) (m ((c : Thread nD τ).loc main_arg0)) (tr90 (m ((c : Thread nD τ).loc main_arg3))) (tr90 (m ((c : Thread nD τ).loc main_arg5))) (m ((c : Thread nD τ).loc main_arg4))) := by
  show StableHlo.after hostOps1 (W2 m ρ c) (Proc.devRef .tc main_v45) = _
  after_results_simp <;> (try rw [b2_v1 m ρ c, b2_v3 m ρ c, b2_v26 m ρ c]) <;> (try rfl)
theorem b3_v46 (c : Dev nD) : W3 m ρ c (Proc.devRef .tc main_v46) = tr90 (m ((c : Thread nD τ).loc main_arg6)) := by
  show StableHlo.after hostOps1 (W2 m ρ c) (Proc.devRef .tc main_v46) = _
  after_results_simp <;> (try rw [b2_arg6 m ρ c]) <;> (try rfl)
theorem b3_v47 (c : Dev nD) : W3 m ρ c (Proc.devRef .tc main_v47) = tr90 (m ((c : Thread nD τ).loc main_arg8)) := by
  show StableHlo.after hostOps1 (W2 m ρ c) (Proc.devRef .tc main_v47) = _
  after_results_simp <;> (try rw [b2_arg8 m ρ c]) <;> (try rfl)
theorem b3_v48 (c : Dev nD) : W3 m ρ c (Proc.devRef .tc main_v48) = shapeCast S1x90 (m ((c : Thread nD τ).loc main_arg7)) shapeCasts_S90_S1x90 := by
  show StableHlo.after hostOps1 (W2 m ρ c) (Proc.devRef .tc main_v48) = _
  after_results_simp <;> (try rw [b2_arg7 m ρ c]) <;> (try rfl)
theorem b3_arg2 (c : Dev nD) : W3 m ρ c (Proc.devRef .tc main_arg2) = (m ((c : Thread nD τ).loc main_arg2)) := by
  show StableHlo.after hostOps1 (W2 m ρ c) (Proc.devRef .tc main_arg2) = _
  after_results_simp <;> (try rw [b2_arg2 m ρ c]) <;> (try rfl)
theorem b3_arg9 (c : Dev nD) : W3 m ρ c (Proc.devRef .tc main_arg9) = (m ((c : Thread nD τ).loc main_arg9)) := by
  show StableHlo.after hostOps1 (W2 m ρ c) (Proc.devRef .tc main_arg9) = _
  after_results_simp <;> (try rw [b2_arg9 m ρ c]) <;> (try rfl)
theorem b3_arg10 (c : Dev nD) : W3 m ρ c (Proc.devRef .tc main_arg10) = (m ((c : Thread nD τ).loc main_arg10)) := by
  show StableHlo.after hostOps1 (W2 m ρ c) (Proc.devRef .tc main_arg10) = _
  after_results_simp <;> (try rw [b2_arg10 m ρ c]) <;> (try rfl)
theorem b3_arg11 (c : Dev nD) : W3 m ρ c (Proc.devRef .tc main_arg11) = (m ((c : Thread nD τ).loc main_arg11)) := by
  show StableHlo.after hostOps1 (W2 m ρ c) (Proc.devRef .tc main_arg11) = _
  after_results_simp <;> (try rw [b2_arg11 m ρ c]) <;> (try rfl)
theorem b3_arg12 (c : Dev nD) : W3 m ρ c (Proc.devRef .tc main_arg12) = (m ((c : Thread nD τ).loc main_arg12)) := by
  show StableHlo.after hostOps1 (W2 m ρ c) (Proc.devRef .tc main_arg12) = _
  after_results_simp <;> (try rw [b2_arg12 m ρ c]) <;> (try rfl)
theorem b3_arg13 (c : Dev nD) : W3 m ρ c (Proc.devRef .tc main_arg13) = (m ((c : Thread nD τ).loc main_arg13)) := by
  show StableHlo.after hostOps1 (W2 m ρ c) (Proc.devRef .tc main_arg13) = _
  after_results_simp <;> (try rw [b2_arg13 m ρ c]) <;> (try rfl)
theorem b3_arg14 (c : Dev nD) : W3 m ρ c (Proc.devRef .tc main_arg14) = (m ((c : Thread nD τ).loc main_arg14)) := by
  show StableHlo.after hostOps1 (W2 m ρ c) (Proc.devRef .tc main_arg14) = _
  after_results_simp <;> (try rw [b2_arg14 m ρ c]) <;> (try rfl)
theorem b3_arg15 (c : Dev nD) : W3 m ρ c (Proc.devRef .tc main_arg15) = (m ((c : Thread nD τ).loc main_arg15)) := by
  show StableHlo.after hostOps1 (W2 m ρ c) (Proc.devRef .tc main_arg15) = _
  after_results_simp <;> (try rw [b2_arg15 m ρ c]) <;> (try rfl)

/-! ## Boundary 4: after the second region -/

theorem b4_v49 (c : Dev nD) : W4 m ρ c (Proc.devRef .tc main_v49) = (layerStep (R := 50000) (K := 90) (aggregate (m ((c : Thread nD τ).loc main_arg1))) (layerStep (R := 50000) (K := 90) (aggregate (m ((c : Thread nD τ).loc main_arg1))) (m ((c : Thread nD τ).loc main_arg0)) (tr90 (m ((c : Thread nD τ).loc main_arg3))) (tr90 (m ((c : Thread nD τ).loc main_arg5))) (m ((c : Thread nD τ).loc main_arg4))) (tr90 (m ((c : Thread nD τ).loc main_arg6))) (tr90 (m ((c : Thread nD τ).loc main_arg8))) (m ((c : Thread nD τ).loc main_arg7))) := by
  refine (W4_arr m ρ c 5).trans ?_
  rw [Regions.array1 (V3 m ρ) c]
  show combine (R := 50000) (K := 90) (N := 90) (W3 m ρ c (Proc.devRef .tc main_v45)) (W3 m ρ c (Proc.devRef .tc main_v26)) (W3 m ρ c (Proc.devRef .tc main_v46))
    (W3 m ρ c (Proc.devRef .tc main_v47)) (rowOf (W3 m ρ c (Proc.devRef .tc main_v48))) = _
  rw [b3_v45 m ρ c, b3_v26 m ρ c, b3_v46 m ρ c, b3_v47 m ρ c, b3_v48 m ρ c, rowOf_shapeCast]
  rfl
theorem b4_v1 (c : Dev nD) : W4 m ρ c (Proc.devRef .tc main_v1) = srcVec (m ((c : Thread nD τ).loc main_arg1)) :=
  (W4_of_ne m ρ c main_v1 (by decide)).trans (b3_v1 m ρ c)
theorem b4_v3 (c : Dev nD) : W4 m ρ c (Proc.devRef .tc main_v3) = dstVec (m ((c : Thread nD τ).loc main_arg1)) :=
  (W4_of_ne m ρ c main_v3 (by decide)).trans (b3_v3 m ρ c)
theorem b4_arg2 (c : Dev nD) : W4 m ρ c (Proc.devRef .tc main_arg2) = (m ((c : Thread nD τ).loc main_arg2)) :=
  (W4_of_ne m ρ c main_arg2 (by decide)).trans (b3_arg2 m ρ c)
theorem b4_arg9 (c : Dev nD) : W4 m ρ c (Proc.devRef .tc main_arg9) = (m ((c : Thread nD τ).loc main_arg9)) :=
  (W4_of_ne m ρ c main_arg9 (by decide)).trans (b3_arg9 m ρ c)
theorem b4_arg10 (c : Dev nD) : W4 m ρ c (Proc.devRef .tc main_arg10) = (m ((c : Thread nD τ).loc main_arg10)) :=
  (W4_of_ne m ρ c main_arg10 (by decide)).trans (b3_arg10 m ρ c)
theorem b4_arg11 (c : Dev nD) : W4 m ρ c (Proc.devRef .tc main_arg11) = (m ((c : Thread nD τ).loc main_arg11)) :=
  (W4_of_ne m ρ c main_arg11 (by decide)).trans (b3_arg11 m ρ c)
theorem b4_arg12 (c : Dev nD) : W4 m ρ c (Proc.devRef .tc main_arg12) = (m ((c : Thread nD τ).loc main_arg12)) :=
  (W4_of_ne m ρ c main_arg12 (by decide)).trans (b3_arg12 m ρ c)
theorem b4_arg13 (c : Dev nD) : W4 m ρ c (Proc.devRef .tc main_arg13) = (m ((c : Thread nD τ).loc main_arg13)) :=
  (W4_of_ne m ρ c main_arg13 (by decide)).trans (b3_arg13 m ρ c)
theorem b4_arg14 (c : Dev nD) : W4 m ρ c (Proc.devRef .tc main_arg14) = (m ((c : Thread nD τ).loc main_arg14)) :=
  (W4_of_ne m ρ c main_arg14 (by decide)).trans (b3_arg14 m ρ c)
theorem b4_arg15 (c : Dev nD) : W4 m ρ c (Proc.devRef .tc main_arg15) = (m ((c : Thread nD τ).loc main_arg15)) :=
  (W4_of_ne m ρ c main_arg15 (by decide)).trans (b3_arg15 m ρ c)

/-! ## Boundary 5: after the third host stretch -/

theorem b5_v49 (c : Dev nD) : W5 m ρ c (Proc.devRef .tc main_v49) = (layerStep (R := 50000) (K := 90) (aggregate (m ((c : Thread nD τ).loc main_arg1))) (layerStep (R := 50000) (K := 90) (aggregate (m ((c : Thread nD τ).loc main_arg1))) (m ((c : Thread nD τ).loc main_arg0)) (tr90 (m ((c : Thread nD τ).loc main_arg3))) (tr90 (m ((c : Thread nD τ).loc main_arg5))) (m ((c : Thread nD τ).loc main_arg4))) (tr90 (m ((c : Thread nD τ).loc main_arg6))) (tr90 (m ((c : Thread nD τ).loc main_arg8))) (m ((c : Thread nD τ).loc main_arg7))) := by
  show StableHlo.after hostOps2 (W4 m ρ c) (Proc.devRef .tc main_v49) = _
  after_results_simp <;> (try rw [b4_v49 m ρ c]) <;> (try rfl)
theorem b5_v68 (c : Dev nD) : W5 m ρ c (Proc.devRef .tc main_v68) = aggregate (m ((c : Thread nD τ).loc main_arg1)) (layerStep (R := 50000) (K := 90) (aggregate (m ((c : Thread nD τ).loc main_arg1))) (layerStep (R := 50000) (K := 90) (aggregate (m ((c : Thread nD τ).loc main_arg1))) (m ((c : Thread nD τ).loc main_arg0)) (tr90 (m ((c : Thread nD τ).loc main_arg3))) (tr90 (m ((c : Thread nD τ).loc main_arg5))) (m ((c : Thread nD τ).loc main_arg4))) (tr90 (m ((c : Thread nD τ).loc main_arg6))) (tr90 (m ((c : Thread nD τ).loc main_arg8))) (m ((c : Thread nD τ).loc main_arg7))) := by
  show StableHlo.after hostOps2 (W4 m ρ c) (Proc.devRef .tc main_v68) = _
  after_results_simp <;> (try rw [b4_v1 m ρ c, b4_v3 m ρ c, b4_v49 m ρ c]) <;> (try rfl)
theorem b5_v69 (c : Dev nD) : W5 m ρ c (Proc.devRef .tc main_v69) = tr90 (m ((c : Thread nD τ).loc main_arg9)) := by
  show StableHlo.after hostOps2 (W4 m ρ c) (Proc.devRef .tc main_v69) = _
  after_results_simp <;> (try rw [b4_arg9 m ρ c]) <;> (try rfl)
theorem b5_v70 (c : Dev nD) : W5 m ρ c (Proc.devRef .tc main_v70) = tr90 (m ((c : Thread nD τ).loc main_arg11)) := by
  show StableHlo.after hostOps2 (W4 m ρ c) (Proc.devRef .tc main_v70) = _
  after_results_simp <;> (try rw [b4_arg11 m ρ c]) <;> (try rfl)
theorem b5_v71 (c : Dev nD) : W5 m ρ c (Proc.devRef .tc main_v71) = shapeCast S1x90 (m ((c : Thread nD τ).loc main_arg10)) shapeCasts_S90_S1x90 := by
  show StableHlo.after hostOps2 (W4 m ρ c) (Proc.devRef .tc main_v71) = _
  after_results_simp <;> (try rw [b4_arg10 m ρ c]) <;> (try rfl)
theorem b5_arg2 (c : Dev nD) : W5 m ρ c (Proc.devRef .tc main_arg2) = (m ((c : Thread nD τ).loc main_arg2)) := by
  show StableHlo.after hostOps2 (W4 m ρ c) (Proc.devRef .tc main_arg2) = _
  after_results_simp <;> (try rw [b4_arg2 m ρ c]) <;> (try rfl)
theorem b5_arg12 (c : Dev nD) : W5 m ρ c (Proc.devRef .tc main_arg12) = (m ((c : Thread nD τ).loc main_arg12)) := by
  show StableHlo.after hostOps2 (W4 m ρ c) (Proc.devRef .tc main_arg12) = _
  after_results_simp <;> (try rw [b4_arg12 m ρ c]) <;> (try rfl)
theorem b5_arg13 (c : Dev nD) : W5 m ρ c (Proc.devRef .tc main_arg13) = (m ((c : Thread nD τ).loc main_arg13)) := by
  show StableHlo.after hostOps2 (W4 m ρ c) (Proc.devRef .tc main_arg13) = _
  after_results_simp <;> (try rw [b4_arg13 m ρ c]) <;> (try rfl)
theorem b5_arg14 (c : Dev nD) : W5 m ρ c (Proc.devRef .tc main_arg14) = (m ((c : Thread nD τ).loc main_arg14)) := by
  show StableHlo.after hostOps2 (W4 m ρ c) (Proc.devRef .tc main_arg14) = _
  after_results_simp <;> (try rw [b4_arg14 m ρ c]) <;> (try rfl)
theorem b5_arg15 (c : Dev nD) : W5 m ρ c (Proc.devRef .tc main_arg15) = (m ((c : Thread nD τ).loc main_arg15)) := by
  show StableHlo.after hostOps2 (W4 m ρ c) (Proc.devRef .tc main_arg15) = _
  after_results_simp <;> (try rw [b4_arg15 m ρ c]) <;> (try rfl)

/-! ## Boundary 6: after the third region -/

theorem b6_v72 (c : Dev nD) : W6 m ρ c (Proc.devRef .tc main_v72) = (layerStep (R := 50000) (K := 90) (aggregate (m ((c : Thread nD τ).loc main_arg1))) (layerStep (R := 50000) (K := 90) (aggregate (m ((c : Thread nD τ).loc main_arg1))) (layerStep (R := 50000) (K := 90) (aggregate (m ((c : Thread nD τ).loc main_arg1))) (m ((c : Thread nD τ).loc main_arg0)) (tr90 (m ((c : Thread nD τ).loc main_arg3))) (tr90 (m ((c : Thread nD τ).loc main_arg5))) (m ((c : Thread nD τ).loc main_arg4))) (tr90 (m ((c : Thread nD τ).loc main_arg6))) (tr90 (m ((c : Thread nD τ).loc main_arg8))) (m ((c : Thread nD τ).loc main_arg7))) (tr90 (m ((c : Thread nD τ).loc main_arg9))) (tr90 (m ((c : Thread nD τ).loc main_arg11))) (m ((c : Thread nD τ).loc main_arg10))) := by
  refine (W6_arr m ρ c 5).trans ?_
  rw [Regions.array2 (V5 m ρ) c]
  show combine (R := 50000) (K := 90) (N := 90) (W5 m ρ c (Proc.devRef .tc main_v68)) (W5 m ρ c (Proc.devRef .tc main_v49)) (W5 m ρ c (Proc.devRef .tc main_v69))
    (W5 m ρ c (Proc.devRef .tc main_v70)) (rowOf (W5 m ρ c (Proc.devRef .tc main_v71))) = _
  rw [b5_v68 m ρ c, b5_v49 m ρ c, b5_v69 m ρ c, b5_v70 m ρ c, b5_v71 m ρ c, rowOf_shapeCast]
  rfl
theorem b6_arg2 (c : Dev nD) : W6 m ρ c (Proc.devRef .tc main_arg2) = (m ((c : Thread nD τ).loc main_arg2)) :=
  (W6_of_ne m ρ c main_arg2 (by decide)).trans (b5_arg2 m ρ c)
theorem b6_arg12 (c : Dev nD) : W6 m ρ c (Proc.devRef .tc main_arg12) = (m ((c : Thread nD τ).loc main_arg12)) :=
  (W6_of_ne m ρ c main_arg12 (by decide)).trans (b5_arg12 m ρ c)
theorem b6_arg13 (c : Dev nD) : W6 m ρ c (Proc.devRef .tc main_arg13) = (m ((c : Thread nD τ).loc main_arg13)) :=
  (W6_of_ne m ρ c main_arg13 (by decide)).trans (b5_arg13 m ρ c)
theorem b6_arg14 (c : Dev nD) : W6 m ρ c (Proc.devRef .tc main_arg14) = (m ((c : Thread nD τ).loc main_arg14)) :=
  (W6_of_ne m ρ c main_arg14 (by decide)).trans (b5_arg14 m ρ c)
theorem b6_arg15 (c : Dev nD) : W6 m ρ c (Proc.devRef .tc main_arg15) = (m ((c : Thread nD τ).loc main_arg15)) :=
  (W6_of_ne m ρ c main_arg15 (by decide)).trans (b5_arg15 m ρ c)

/-! ## Boundary 7: after the last host stretch -/

theorem b7_v84 (c : Dev nD) : W7 m ρ c (Proc.devRef .tc main_v84) = pooling (m ((c : Thread nD τ).loc main_arg2)) (layerStep (R := 50000) (K := 90) (aggregate (m ((c : Thread nD τ).loc main_arg1))) (layerStep (R := 50000) (K := 90) (aggregate (m ((c : Thread nD τ).loc main_arg1))) (layerStep (R := 50000) (K := 90) (aggregate (m ((c : Thread nD τ).loc main_arg1))) (m ((c : Thread nD τ).loc main_arg0)) (tr90 (m ((c : Thread nD τ).loc main_arg3))) (tr90 (m ((c : Thread nD τ).loc main_arg5))) (m ((c : Thread nD τ).loc main_arg4))) (tr90 (m ((c : Thread nD τ).loc main_arg6))) (tr90 (m ((c : Thread nD τ).loc main_arg8))) (m ((c : Thread nD τ).loc main_arg7))) (tr90 (m ((c : Thread nD τ).loc main_arg9))) (tr90 (m ((c : Thread nD τ).loc main_arg11))) (m ((c : Thread nD τ).loc main_arg10))) := by
  show StableHlo.after hostOps3 (W6 m ρ c) (Proc.devRef .tc main_v84) = _
  after_results_simp <;> (try rw [b6_arg2 m ρ c, b6_v72 m ρ c]) <;> (try rfl)
theorem b7_v85 (c : Dev nD) : W7 m ρ c (Proc.devRef .tc main_v85) = transpose S90x32 [1, 0] (m ((c : Thread nD τ).loc main_arg12)) transposes_S32x90_S90x32_1_0 := by
  show StableHlo.after hostOps3 (W6 m ρ c) (Proc.devRef .tc main_v85) = _
  after_results_simp <;> (try rw [b6_arg12 m ρ c]) <;> (try rfl)
theorem b7_v86 (c : Dev nD) : W7 m ρ c (Proc.devRef .tc main_v86) = transpose S32x1 [1, 0] (m ((c : Thread nD τ).loc main_arg14)) transposes_S1x32_S32x1_1_0 := by
  show StableHlo.after hostOps3 (W6 m ρ c) (Proc.devRef .tc main_v86) = _
  after_results_simp <;> (try rw [b6_arg14 m ρ c]) <;> (try rfl)
theorem b7_v87 (c : Dev nD) : W7 m ρ c (Proc.devRef .tc main_v87) = shapeCast S1x32 (m ((c : Thread nD τ).loc main_arg13)) shapeCasts_S32_S1x32 := by
  show StableHlo.after hostOps3 (W6 m ρ c) (Proc.devRef .tc main_v87) = _
  after_results_simp <;> (try rw [b6_arg13 m ρ c]) <;> (try rfl)
theorem b7_v88 (c : Dev nD) : W7 m ρ c (Proc.devRef .tc main_v88) = shapeCast S1x1 (m ((c : Thread nD τ).loc main_arg15)) shapeCasts_S1_S1x1 := by
  show StableHlo.after hostOps3 (W6 m ρ c) (Proc.devRef .tc main_v88) = _
  after_results_simp <;> (try rw [b6_arg15 m ρ c]) <;> (try rfl)

/-! ## The result -/

/-- The result buffer at the last boundary is the network over the program's aggregation and pooling. -/
theorem result_eq (c : Dev nD) : W8 m ρ c (Proc.devRef .tc main_v89)
    = network (R := 50000) (K := 90) (N := 32) (M := 1) (G := 64) (aggregate (m ((c : Thread nD τ).loc main_arg1))) (pooling (m ((c : Thread nD τ).loc main_arg2))) (m ((c : Thread nD τ).loc main_arg0))
        (tr90 (m ((c : Thread nD τ).loc main_arg3))) (tr90 (m ((c : Thread nD τ).loc main_arg5))) (tr90 (m ((c : Thread nD τ).loc main_arg6))) (tr90 (m ((c : Thread nD τ).loc main_arg8))) (tr90 (m ((c : Thread nD τ).loc main_arg9))) (tr90 (m ((c : Thread nD τ).loc main_arg11))) (m ((c : Thread nD τ).loc main_arg4)) (m ((c : Thread nD τ).loc main_arg7)) (m ((c : Thread nD τ).loc main_arg10))
        (transpose S90x32 [1, 0] (m ((c : Thread nD τ).loc main_arg12)) transposes_S32x90_S90x32_1_0) (m ((c : Thread nD τ).loc main_arg13))
        (transpose S32x1 [1, 0] (m ((c : Thread nD τ).loc main_arg14)) transposes_S1x32_S32x1_1_0) (m ((c : Thread nD τ).loc main_arg15)) := by
  refine (W8_arr m ρ c 5).trans ?_
  rw [Regions.array3 (V7 m ρ) c]
  show head (R := 64) (K := 90) (N := 32) (M := 1) (W7 m ρ c (Proc.devRef .tc main_v84)) (W7 m ρ c (Proc.devRef .tc main_v85)) (rowOf (W7 m ρ c (Proc.devRef .tc main_v87)))
    (W7 m ρ c (Proc.devRef .tc main_v86)) (rowOf (W7 m ρ c (Proc.devRef .tc main_v88))) = _
  rw [b7_v84 m ρ c, b7_v85 m ρ c, b7_v86 m ρ c, b7_v87 m ρ c, b7_v88 m ρ c, rowOf_shapeCast, rowOf_shapeCast]
  rfl

end Cert.KernelIdeal.Net

end
-- ==== Proof.LibDenseOps.lean ====
/-
  The small operations of a dense stage, read at an entry, at the ideal values.

  A bias vector `b` of length `K` is added to every row of an `R × K` matrix and the rectifier applied. A kernel spells the
  row broadcast `[K] → [1, K] → [R, K]` with a shape cast and a vector broadcast and the rectifier's zero as a scalar
  splat; the host spells the broadcast with two `broadcast_in_dim`s and the zero as a broadcast constant. Either way the
  entry at `(r, k)` is `max (A[r,k] + b[k]) 0`, the `0` being the all-zero word. The same for the one-entry bias of the
  last stage. The logistic function `σ t = 1 / (1 + e⁻ᵗ)`, spelt by the host with the word `0x3F800000` for `1`, is the
  function the kernel's single operation denotes.
-/
import proofs.«153111_j23476291240662_1_alg».proof.Proof.LibDenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Idealize.ShloMosaic Idealize.ShloMosaic.ValueIdx

variable {R K : ℕ}

/-- A kernel's `relu (A + b)` at entry `(p, k)`. -/
theorem biasRelu_vector (x0 : FVec Ideal ⟨2, ![R, K]⟩ .f32) (x1 : FVec Ideal ⟨1, ![K]⟩ .f32)
    (h1 : (⟨2, ![R, K]⟩ : Shape).ShapeCasts ⟨2, ![R, K]⟩) (h2 : (⟨1, ![K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 x1 (ix2 p k) := by
  rw [biasRelu_ix2, maximumf_apply, addf_apply, broadcast_apply, shapeCast_self, broadcastTo_1b_ab_apply, shapeCast_a_1a_apply]
  rfl

/-- A length-`K` vector broadcast over the rows of an `R × K` matrix by two `broadcast_in_dim`s, at entry `(r, k)`. -/
theorem rowBroadcast_host {α : Type} (b : (⟨1, ![K]⟩ : Shape).Idx → α)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2)) (r : Fin R) (k : Fin K) :
    broadcastInDim ⟨2, ![R, K]⟩ (![0, 1] : Fin 2 → Fin 2) h2 (broadcastInDim ⟨2, ![1, K]⟩ (![1] : Fin 1 → Fin 2) h1 b) (ix2 r k) = b (ix1 k) := by
  rw [broadcastInDim_apply (![0, 1] : Fin 2 → Fin 2) h2 _ (ix2 r k) (ix2 (0 : Fin 1) k) (fun a => by
    match a with
    | ⟨0, _⟩ => rfl
    | ⟨1, _⟩ =>
      show k.val = if K = 1 then 0 else k.val
      split
      · have := k.isLt; omega
      · rfl)]
  exact broadcastInDim_apply (![1] : Fin 1 → Fin 2) h1 b (ix2 (0 : Fin 1) k) (ix1 k) (fun a => by
    match a with
    | ⟨0, _⟩ =>
      show k.val = if K = 1 then 0 else k.val
      split
      · have := k.isLt; omega
      · rfl)

/-- The host's `relu (A + b)` at entry `(r, k)`. -/
theorem biasRelu_host (a : FVec Ideal ⟨2, ![R, K]⟩ .f32) (b : FVec Ideal ⟨1, ![K]⟩ .f32)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2))
    (h3 : (⟨0, ![]⟩ : Shape).BroadcastsInDim ⟨2, ![R, K]⟩ (![] : Fin 0 → Fin 2)) (r : Fin R) (k : Fin K) :
    maximumf (addf a (broadcastInDim ⟨2, ![R, K]⟩ (![0, 1] : Fin 2 → Fin 2) h2 (broadcastInDim ⟨2, ![1, K]⟩ (![1] : Fin 1 → Fin 2) h1 b)))
        (broadcastInDim ⟨2, ![R, K]⟩ (![] : Fin 0 → Fin 2) h3 (constant (F := Ideal) ⟨0, ![]⟩ .f32 0x00000000#32)) (ix2 r k)
      = biasRelu a b (ix2 r k) := by
  rw [biasRelu_ix2, maximumf_apply, addf_apply, rowBroadcast_host b h1 h2 r k,
    broadcastInDim_apply (![] : Fin 0 → Fin 2) h3 _ (ix2 r k) ix0 (fun a => a.elim0)]
  rfl

/-- A constant broadcast to an `R × K` matrix by the host, at any entry: the constant's word. -/
theorem splat_host (h3 : (⟨0, ![]⟩ : Shape).BroadcastsInDim ⟨2, ![R, K]⟩ (![] : Fin 0 → Fin 2)) (w : BitVec 32) (i : (⟨2, ![R, K]⟩ : Shape).Idx) :
    broadcastInDim ⟨2, ![R, K]⟩ (![] : Fin 0 → Fin 2) h3 (constant (F := Ideal) ⟨0, ![]⟩ .f32 w) i = Ideal.ofBits .f32 w := by
  rw [broadcastInDim_apply (![] : Fin 0 → Fin 2) h3 _ i ix0 (fun a => a.elim0)]
  rfl

/-- The word `0x3F800000` is the number one. -/
theorem one_word : Ideal.ofBits .f32 0x3F800000#32 = 1 := by
  simp [Ideal.ofBits, Ideal.ieee, -EReal.coe_mul]; norm_num

/-- The logistic function spelt `1 / (1 + e⁻ᵗ)` with the word for one. -/
theorem logistic_spelt (t : EReal) :
    Ideal.div (Ideal.ofBits .f32 0x3F800000#32) (Ideal.ofBits .f32 0x3F800000#32 + Ideal.exp (-t)) = Ideal.logistic t := by
  rw [one_word]; rfl

/-- The host's `1 / (1 + e^(-z))` at an entry where both of its ones are the word for one: the logistic function of `z`'s
    entry. -/
theorem logistic_host {S : Shape} (one₁ one₂ z : FVec Ideal S .f32) (i : S.Idx)
    (h1 : one₁ i = Ideal.ofBits .f32 0x3F800000#32) (h2 : one₂ i = Ideal.ofBits .f32 0x3F800000#32) :
    Host.divf one₁ (addf one₂ (Host.exp (Host.negf z))) i = Ideal.logistic (z i) := by
  show Ideal.div (one₁ i) (one₂ i + Ideal.exp (-(z i))) = _
  rw [h1, h2, logistic_spelt]

end Cert.Gcn

end
-- ==== Proof.RefValue.lean ====
/-
  The reference program's result as the network of the dense stages.

  On the host a layer is relu ((A · Wlᵀ + b) + X · Wrᵀ): two products with the transposed weights, the bias broadcast
  over the rows between them, and a maximum with a broadcast zero. Read at an entry, each product is the plain sum over
  the contracted index, the two broadcasts of the bias give its entry at the column, and the sum regroups to
  (A · Wlᵀ + X · Wrᵀ) + b. The head is relu (P · W1ᵀ + b1) · W2ᵀ + b2 spelt the same way. The neighbour aggregation and
  the pooling are the same host operations at every layer; they are kept as whole-array maps and never opened.
-/
import proofs.«153111_j23476291240662_1_alg».proof.Proof.Gen.ReferenceIdeal.Read
import proofs.«153111_j23476291240662_1_alg».proof.Proof.LibSageSpec
import proofs.«153111_j23476291240662_1_alg».proof.Proof.LibMatmulSum
import proofs.«153111_j23476291240662_1_alg».proof.Proof.LibDenseOps

set_option maxRecDepth 16384

noncomputable section

namespace Cert.ReferenceIdeal.RefValue

open Idealize.ShloMosaic Idealize.ShloMosaic.ValueIdx
open Cert.ReferenceIdeal Cert.ReferenceIdeal.Read Cert.Gcn Cert.Sage Cert.GraphConv

/-- A layer's host product at an entry. -/
theorem layerDot_sum (l : FVec Ideal S50000x90 .f32) (r : FVec Ideal S90x90 .f32) (i : S50000x90.Idx) :
    Host.dotGeneral (F := Ideal) dot_S50000x90_S90x90_S50000x90_1_0_0_1_n_n none l r i
      = ∑ k : Fin 90, l (ix2 (i 0) k) * r (ix2 k (i 1)) :=
  dotGeneral_sum (R := 50000) (K := 90) (N := 90) dot_S50000x90_S90x90_S50000x90_1_0_0_1_n_n none _ rfl rfl
    lhs_main_v24_0 lhs_main_v24_1 rhs_main_v24_0 rhs_main_v24_1 l r i

theorem headDot1_sum (l : FVec Ideal S64x90 .f32) (r : FVec Ideal S90x32 .f32) (i : S64x32.Idx) :
    Host.dotGeneral (F := Ideal) dot_S64x90_S90x32_S64x32_1_0_0_1_n_n none l r i
      = ∑ k : Fin 90, l (ix2 (i 0) k) * r (ix2 k (i 1)) :=
  dotGeneral_sum (R := 64) (K := 90) (N := 32) dot_S64x90_S90x32_S64x32_1_0_0_1_n_n none _ rfl rfl
    lhs_main_v101_0 lhs_main_v101_1 rhs_main_v101_0 rhs_main_v101_1 l r i

theorem headDot2_sum (l : FVec Ideal S64x32 .f32) (r : FVec Ideal S32x1 .f32) (i : S64x1.Idx) :
    Host.dotGeneral (F := Ideal) dot_S64x32_S32x1_S64x1_1_0_0_1_n_n none l r i
      = ∑ k : Fin 32, l (ix2 (i 0) k) * r (ix2 k (i 1)) :=
  dotGeneral_sum (R := 64) (K := 32) (N := 1) dot_S64x32_S32x1_S64x1_1_0_0_1_n_n none _ rfl rfl
    lhs_main_v107_0 lhs_main_v107_1 rhs_main_v107_0 rhs_main_v107_1 l r i

/-- The host's layer, with the weights already transposed, is the layer function. -/
theorem hostLayer_eq (A X : FVec Ideal S50000x90 .f32) (Wl Wr : FVec Ideal S90x90 .f32) (b : FVec Ideal S90 .f32)
    (h1 : S90.BroadcastsInDim S1x90 (![1] : Fin 1 → Fin 2)) (h2 : S1x90.BroadcastsInDim S50000x90 (![0, 1] : Fin 2 → Fin 2))
    (h3 : S_.BroadcastsInDim S50000x90 (![] : Fin 0 → Fin 2)) :
    maximumf (addf (addf (Host.dotGeneral (F := Ideal) dot_S50000x90_S90x90_S50000x90_1_0_0_1_n_n none A Wl)
          (broadcastInDim S50000x90 ![0, 1] h2 (broadcastInDim S1x90 ![1] h1 b)))
        (Host.dotGeneral (F := Ideal) dot_S50000x90_S90x90_S50000x90_1_0_0_1_n_n none X Wr))
      (broadcastInDim S50000x90 ![] h3 (constant (F := Ideal) S_ .f32 0x00000000#32))
      = combine (R := 50000) (K := 90) (N := 90) A X Wl Wr b := by
  funext j
  obtain ⟨r, c, rfl⟩ : ∃ (r : Fin 50000) (c : Fin 90), j = ix2 r c := ⟨j 0, j 1, eq_ix2 j⟩
  rw [← combine_bias_first]
  refine (maximumf_apply _ _ _).trans ?_
  refine congrArg₂ max ?_ (splat_host (R := 50000) (K := 90) h3 _ _)
  refine (addf_apply _ _ _).trans ?_
  refine congrArg₂ (· + ·) ?_ (layerDot_sum _ _ _)
  refine (addf_apply _ _ _).trans ?_
  exact congrArg₂ (· + ·) (layerDot_sum _ _ _) (rowBroadcast_host (R := 50000) (K := 90) b h1 h2 r c)

/-- The host's head, with the weights already transposed, is the head function. -/
theorem hostHead_eq (P : FVec Ideal S64x90 .f32) (W1 : FVec Ideal S90x32 .f32) (b1 : FVec Ideal S32 .f32)
    (W2 : FVec Ideal S32x1 .f32) (b2 : FVec Ideal S1 .f32)
    (h1 : S32.BroadcastsInDim S1x32 (![1] : Fin 1 → Fin 2)) (h2 : S1x32.BroadcastsInDim S64x32 (![0, 1] : Fin 2 → Fin 2))
    (h3 : S_.BroadcastsInDim S64x32 (![] : Fin 0 → Fin 2))
    (h4 : S1.BroadcastsInDim S1x1 (![1] : Fin 1 → Fin 2)) (h5 : S1x1.BroadcastsInDim S64x1 (![0, 1] : Fin 2 → Fin 2)) :
    addf (Host.dotGeneral (F := Ideal) dot_S64x32_S32x1_S64x1_1_0_0_1_n_n none
        (maximumf (addf (Host.dotGeneral (F := Ideal) dot_S64x90_S90x32_S64x32_1_0_0_1_n_n none P W1)
            (broadcastInDim S64x32 ![0, 1] h2 (broadcastInDim S1x32 ![1] h1 b1)))
          (broadcastInDim S64x32 ![] h3 (constant (F := Ideal) S_ .f32 0x00000000#32))) W2)
      (broadcastInDim S64x1 ![0, 1] h5 (broadcastInDim S1x1 ![1] h4 b2))
      = head (R := 64) (K := 90) (N := 32) (M := 1) P W1 b1 W2 b2 := by
  funext j
  obtain ⟨r, c, rfl⟩ : ∃ (r : Fin 64) (c : Fin 1), j = ix2 r c := ⟨j 0, j 1, eq_ix2 j⟩
  rw [head_ix2]
  refine (addf_apply _ _ _).trans ?_
  refine congrArg₂ (· + ·) ?_ (rowBroadcast_host (R := 64) (K := 1) b2 h4 h5 r c)
  refine (headDot2_sum _ _ _).trans ?_
  refine Finset.sum_congr rfl fun n _ => ?_
  refine congrArg₂ (· * ·) ?_ rfl
  refine (maximumf_apply _ _ _).trans ?_
  refine congrArg₂ max ?_ (splat_host (R := 64) (K := 32) h3 _ _)
  refine (addf_apply _ _ _).trans ?_
  exact congrArg₂ (· + ·) (headDot1_sum _ _ _) (rowBroadcast_host (R := 64) (K := 32) b1 h1 h2 r n)

/-! ## The stages of the program -/

/-- The neighbour aggregation of features `h` along the edge list `ei`: the same host operations at every layer. -/
def aggregate (ei : (⟨S2x800000, .i32⟩ : BufTy).Contents (Elt Ideal)) (h : FVec Ideal S50000x90 .f32) : FVec Ideal S50000x90 .f32 :=
  val_main_v22 (F := Ideal) h ei

/-- The mean pooling of node features over the graphs named by `batch`. -/
def pooling (batch : (⟨S50000, .i32⟩ : BufTy).Contents (Elt Ideal)) (h : FVec Ideal S50000x90 .f32) : FVec Ideal S64x90 .f32 :=
  Host.divf (Host.scatterAdd scatter_S64x90_S50000x1_S50000x90_1_0_0_1 (val_main_v88 (F := Ideal)) (val_main_v89 (F := Ideal) batch) h)
    (val_main_v98 (F := Ideal) batch)

section
variable (x0 : (⟨S50000x90, .f32⟩ : BufTy).Contents (Elt Ideal)) (x1 : (⟨S2x800000, .i32⟩ : BufTy).Contents (Elt Ideal))
  (x2 : (⟨S50000, .i32⟩ : BufTy).Contents (Elt Ideal)) (x3 : (⟨S90x90, .f32⟩ : BufTy).Contents (Elt Ideal))
  (x4 : (⟨S90, .f32⟩ : BufTy).Contents (Elt Ideal)) (x5 x6 : (⟨S90x90, .f32⟩ : BufTy).Contents (Elt Ideal))
  (x7 : (⟨S90, .f32⟩ : BufTy).Contents (Elt Ideal)) (x8 x9 : (⟨S90x90, .f32⟩ : BufTy).Contents (Elt Ideal))
  (x10 : (⟨S90, .f32⟩ : BufTy).Contents (Elt Ideal)) (x11 : (⟨S90x90, .f32⟩ : BufTy).Contents (Elt Ideal))
  (x12 : (⟨S32x90, .f32⟩ : BufTy).Contents (Elt Ideal)) (x13 : (⟨S32, .f32⟩ : BufTy).Contents (Elt Ideal))
  (x14 : (⟨S1x32, .f32⟩ : BufTy).Contents (Elt Ideal)) (x15 : (⟨S1, .f32⟩ : BufTy).Contents (Elt Ideal))

theorem layer1_eq : val_main_v31 (F := Ideal) x0 x1 x3 x4 x5
    = layerStep (R := 50000) (K := 90) (aggregate x1) x0 (val_main_v23 (F := Ideal) x3) (val_main_v28 (F := Ideal) x5) x4 :=
  hostLayer_eq (val_main_v22 (F := Ideal) x0 x1) x0 (val_main_v23 (F := Ideal) x3) (val_main_v28 (F := Ideal) x5) x4 _ _ _

theorem layer2_eq : val_main_v59 (F := Ideal) x0 x1 x3 x4 x5 x6 x7 x8
    = layerStep (R := 50000) (K := 90) (aggregate x1) (val_main_v31 (F := Ideal) x0 x1 x3 x4 x5)
        (val_main_v51 (F := Ideal) x6) (val_main_v56 (F := Ideal) x8) x7 :=
  hostLayer_eq (val_main_v22 (F := Ideal) (val_main_v31 (F := Ideal) x0 x1 x3 x4 x5) x1) (val_main_v31 (F := Ideal) x0 x1 x3 x4 x5)
    (val_main_v51 (F := Ideal) x6) (val_main_v56 (F := Ideal) x8) x7 _ _ _

theorem layer3_eq : val_main_v87 (F := Ideal) x0 x1 x3 x4 x5 x6 x7 x8 x9 x10 x11
    = layerStep (R := 50000) (K := 90) (aggregate x1) (val_main_v59 (F := Ideal) x0 x1 x3 x4 x5 x6 x7 x8)
        (val_main_v79 (F := Ideal) x9) (val_main_v84 (F := Ideal) x11) x10 :=
  hostLayer_eq (val_main_v22 (F := Ideal) (val_main_v59 (F := Ideal) x0 x1 x3 x4 x5 x6 x7 x8) x1) (val_main_v59 (F := Ideal) x0 x1 x3 x4 x5 x6 x7 x8)
    (val_main_v79 (F := Ideal) x9) (val_main_v84 (F := Ideal) x11) x10 _ _ _

theorem head_eq : val_main_v110 (F := Ideal) x0 x1 x2 x3 x4 x5 x6 x7 x8 x9 x10 x11 x12 x13 x14 x15
    = head (R := 64) (K := 90) (N := 32) (M := 1) (pooling x2 (val_main_v87 (F := Ideal) x0 x1 x3 x4 x5 x6 x7 x8 x9 x10 x11))
        (val_main_v100 (F := Ideal) x12) x13 (val_main_v106 (F := Ideal) x14) x15 :=
  hostHead_eq (pooling x2 (val_main_v87 (F := Ideal) x0 x1 x3 x4 x5 x6 x7 x8 x9 x10 x11))
    (val_main_v100 (F := Ideal) x12) x13 (val_main_v106 (F := Ideal) x14) x15 _ _ _ _ _

/-- The reference's result is the network over its own aggregation and pooling. -/
theorem result_eq : val_main_v110 (F := Ideal) x0 x1 x2 x3 x4 x5 x6 x7 x8 x9 x10 x11 x12 x13 x14 x15
    = network (R := 50000) (K := 90) (N := 32) (M := 1) (G := 64) (aggregate x1) (pooling x2) x0
        (val_main_v23 (F := Ideal) x3) (val_main_v28 (F := Ideal) x5) (val_main_v51 (F := Ideal) x6) (val_main_v56 (F := Ideal) x8)
        (val_main_v79 (F := Ideal) x9) (val_main_v84 (F := Ideal) x11) x4 x7 x10
        (val_main_v100 (F := Ideal) x12) x13 (val_main_v106 (F := Ideal) x14) x15 := by
  unfold network
  rw [head_eq, layer3_eq, layer2_eq, layer1_eq]

end

end Cert.ReferenceIdeal.RefValue

end
-- ==== Proof.lean ====
/-
  The certificate of a three-layer SAGE graph network with a mean-pooled two-layer head.

  Both programs compute, for node features x, an edge list and a graph assignment,
      h₁ = relu (agg x · W1lᵀ + x · W1rᵀ + b1),  h₂, h₃ likewise from h₁, h₂,
      out = relu (pool h₃ · Wf1ᵀ + bf1) · Wf2ᵀ + bf2,
  where agg is the mean of the neighbours' rows and pool the mean over each graph's nodes. The kernel program runs each
  dense layer in a region over ten row blocks and the head in a one-point region, with the gathers, scatters and
  transposes on the host between them; the reference program runs everything on the host and adds the bias between the
  two products of a layer. On extended reals a product read at an entry is the plain sum over the contracted index
  whatever the tiling, and a three-term sum may be regrouped, so the two results agree entry by entry; the aggregation and
  pooling maps are the same operations in both programs and are never opened. No finiteness of the inputs is used.
-/
import proofs.«153111_j23476291240662_1_alg».proof.Defs
import proofs.«153111_j23476291240662_1_alg».proof.Proof.Gen.Kernel
import proofs.«153111_j23476291240662_1_alg».proof.Proof.Gen.Kernel.Skeleton
import proofs.«153111_j23476291240662_1_alg».proof.Proof.Gen.Kernel.Launch
import proofs.«153111_j23476291240662_1_alg».proof.Proof.Gen.Kernel.Points
import proofs.«153111_j23476291240662_1_alg».proof.Proof.Gen.Kernel.Frame
import proofs.«153111_j23476291240662_1_alg».proof.Proof.Gen.KernelIdeal
import proofs.«153111_j23476291240662_1_alg».proof.Proof.Gen.KernelIdeal.Skeleton
import proofs.«153111_j23476291240662_1_alg».proof.Proof.Gen.KernelIdeal.Launch
import proofs.«153111_j23476291240662_1_alg».proof.Proof.Gen.KernelIdeal.Points
import proofs.«153111_j23476291240662_1_alg».proof.Proof.Gen.KernelIdeal.Frame
import proofs.«153111_j23476291240662_1_alg».proof.Proof.Gen.ReferenceIdeal
import proofs.«153111_j23476291240662_1_alg».proof.Proof.Gen.Pre_finite_inputs
import proofs.«153111_j23476291240662_1_alg».proof.Proof.Gen.ReferenceIdeal.Run
import proofs.«153111_j23476291240662_1_alg».proof.Proof.Gen.ReferenceIdeal.Read
import proofs.«153111_j23476291240662_1_alg».proof.Proof.KernelRun
import proofs.«153111_j23476291240662_1_alg».proof.Proof.KernelValue
import proofs.«153111_j23476291240662_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The two programs' aggregation maps are the same host operations. -/
theorem aggregate_eq : Cert.KernelIdeal.Net.aggregate = Cert.ReferenceIdeal.RefValue.aggregate := rfl

/-- The two programs' pooling maps are the same host operations. -/
theorem pooling_eq : Cert.KernelIdeal.Net.pooling = Cert.ReferenceIdeal.RefValue.pooling := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the network of the launch arrays in the result buffer; the arrays agree, and the two networks
    are over the same aggregation, pooling and transposed weights. -/
theorem algebraic : Cert.algebraic_KernelIdeal_ReferenceIdeal := by
  intro m ρ m' ρ' _ hagree
  refine ⟨fun c => Cert.KernelIdeal.Gen.W8 m ρ c (Proc.devRef .tc Cert.KernelIdeal.main_v89), Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  show Cert.ReferenceIdeal.Value.res_main_v110 m' c = Cert.KernelIdeal.Gen.W8 m ρ c (Proc.devRef .tc Cert.KernelIdeal.main_v89)
  rw [Cert.ReferenceIdeal.Read.val_main_v110_eq, Cert.ReferenceIdeal.RefValue.result_eq, Cert.KernelIdeal.Net.result_eq,
    a0, a1, a2, a3, a4, a5, a6, a7, a8, a9, a10, a11, a12, a13, a14, a15, aggregate_eq, pooling_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
